-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S32x256 .f32) (main_arg2 : FVec F S32 .f32) (main_arg3 : FVec F S256x32 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S1x32 : Shape := ⟨2, ![1, 32]⟩
abbrev S1x256 : Shape := ⟨2, ![1, 256]⟩
abbrev S1x256x4096 : Shape := ⟨3, ![1, 256, 4096]⟩
abbrev S256x4096 : Shape := ⟨2, ![256, 4096]⟩
abbrev S256x1 : Shape := ⟨2, ![256, 1]⟩
abbrev S256x256 : Shape := ⟨2, ![256, 256]⟩
abbrev S1x256x256 : Shape := ⟨3, ![1, 256, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S32x256x4096, .f32⟩
  | .hbm, ⟨6, _⟩ => ⟨S256x32, .f32⟩
  | .hbm, ⟨7, _⟩ => ⟨S32x256, .f32⟩
  | .hbm, ⟨8, _⟩ => ⟨S1x32, .f32⟩
  | .hbm, ⟨9, _⟩ => ⟨S1x256, .f32⟩
  | .hbm, ⟨10, _⟩ => ⟨S32x256x4096, .f32⟩
  | .hbm, ⟨11, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S256x32, .f32⟩
  | .local _ .vmem, ⟨3, _⟩ => ⟨S1x32, .f32⟩
  | .local _ .vmem, ⟨4, _⟩ => ⟨S32x256, .f32⟩
  | .local _ .vmem, ⟨5, _⟩ => ⟨S1x256, .f32⟩
  | .local _ .vmem, ⟨6, _⟩ => ⟨S1x256x4096, .f32⟩
  | .local _ .vmem, ⟨7, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  transposes_S32x256_S256x32_1_0 : S32x256.Transposes [1, 0] S256x32
  transposes_S256x32_S32x256_1_0 : S256x32.Transposes [1, 0] S32x256
  shapeCasts_S32_S1x32 : S32.ShapeCasts S1x32
  shapeCasts_S256_S1x256 : S256.ShapeCasts S1x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  iota_S256x256_d0_w32 : S256x256.Iotas .tc 32 [0]
  iota_S256x256_d1_w32 : S256x256.Iotas .tc 32 [1]
  natLt_1_32 : 1 < 32
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  broadcasts_S1x1_S256x256 : S1x1.Broadcasts S256x256
  reduces_S256x256_S256 : S256x256.Reduces [0] S256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  shapeCasts_S256x4096_S1x256x4096 : S256x4096.ShapeCasts S1x256x4096
  shapeCasts_S32x256x4096_S32x256x64x64 : S32x256x4096.ShapeCasts S32x256x64x64
  dot_S256x4096_S256x4096_S256x256_1_1_0_0_n_n_wf : DotDims.WF S256x4096 S256x4096 S256x256 [1] [1] [0] [0] [] []
  dot_S256x256_S256x256_S256x256_1_0_0_1_n_n_wf : DotDims.WF S256x256 S256x256 S256x256 [1] [0] [0] [1] [] []
  dot_S1x256_S256x32_S1x32_1_0_0_1_n_n_wf : DotDims.WF S1x256 S256x32 S1x32 [1] [0] [0] [1] [] []
  dot_S1x32_S32x256_S1x256_1_0_0_1_n_n_wf : DotDims.WF S1x32 S32x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .f32 = 32 ∨ (Rect.block (s := S32x256) S32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S32x256x4096.size a
  hwx0_5 : ∀ i : grid0.Coords, EltTy.bits .f32 = 32 ∨ (Rect.block (s := S32x256x4096) S1x256x4096.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1x256_S256x32_S1x32_1_0_0_1_n_n : DotDims S1x256 S256x32 S1x32 where
  lhsContracting := [1]
  rhsContracting := [0]
  lhsNonContracting := [0]
  rhsNonContracting := [1]
  lhsBatch := []
  rhsBatch := []
  wf := dot_S1x256_S256x32_S1x32_1_0_0_1_n_n_wf
def dot_S1x32_S32x256_S1x256_1_0_0_1_n_n : DotDims S1x32 S32x256 S1x256 where
  lhsContracting := [1]
  rhsContracting := [0]
  lhsNonContracting := [0]
  rhsNonContracting := [1]
  lhsBatch := []
  rhsBatch := []
  wf := dot_S1x32_S32x256_S1x256_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S_ : Shape := ⟨0, ![]⟩
abbrev S32x256x1 : Shape := ⟨3, ![32, 256, 1]⟩
abbrev S32x256x256 : Shape := ⟨3, ![32, 256, 256]⟩
abbrev S256x256 : Shape := ⟨2, ![256, 256]⟩
abbrev S32x1x1 : Shape := ⟨3, ![32, 1, 1]⟩
abbrev S1x256x256 : Shape := ⟨3, ![1, 256, 256]⟩
abbrev S32x32 : Shape := ⟨2, ![32, 32]⟩
abbrev S1x32 : Shape := ⟨2, ![1, 32]⟩
abbrev S1x256 : Shape := ⟨2, ![1, 256]⟩
abbrev S32x256x1x1 : Shape := ⟨4, ![32, 256, 1, 1]⟩

abbrev nBuf : Space → Nat
  | .hbm => 130
  | .vmem => 0
  | .smem => 0
  | _ => 0

abbrev hbmTy0_0 (i : Nat) : BufTy := match i % 128 with
  | 0 => ⟨S32x256x64x64, .f32⟩
  | 1 => ⟨S32x256, .f32⟩
  | 2 => ⟨S32, .f32⟩
  | 3 => ⟨S256x32, .f32⟩
  | 4 => ⟨S256, .f32⟩
  | 5 => ⟨S32x256x4096, .f32⟩
  | 6 => ⟨S_, .f32⟩
  | 7 => ⟨S32x256, .f32⟩
  | 8 => ⟨S32x256x1, .f32⟩
  | 9 => ⟨S_, .f32⟩
  | 10 => ⟨S32x256x1, .f32⟩
  | 11 => ⟨S32x256x1, .f32⟩
  | 12 => ⟨S32x256x4096, .f32⟩
  | 13 => ⟨S32x256x4096, .f32⟩
  | 14 => ⟨S32x256x256, .f32⟩
  | 15 => ⟨S_, .f32⟩
  | 16 => ⟨S32x256x256, .f32⟩
  | 17 => ⟨S32x256x256, .f32⟩
  | 18 => ⟨S256x256, .i32⟩
  | 19 => ⟨S256x256, .i32⟩
  | 20 => ⟨S_, .i32⟩
  | 21 => ⟨S256x256, .i32⟩
  | 22 => ⟨S256x256, .i32⟩
  | 23 => ⟨S256x256, .i1⟩
  | 24 => ⟨S256x256, .f32⟩
  | 25 => ⟨S256x256, .i32⟩
  | 26 => ⟨S256x256, .i32⟩
  | 27 => ⟨S_, .i32⟩
  | 28 => ⟨S256x256, .i32⟩
  | 29 => ⟨S256x256, .i32⟩
  | 30 => ⟨S256x256, .i1⟩
  | 31 => ⟨S_, .f32⟩
  | 32 => ⟨S32x256x256, .f32⟩
  | 33 => ⟨S32x256x256, .i1⟩
  | 34 => ⟨S32x256x256, .f32⟩
  | 35 => ⟨S_, .f32⟩
  | 36 => ⟨S32, .f32⟩
  | 37 => ⟨S32x1x1, .f32⟩
  | 38 => ⟨S32x256x256, .f32⟩
  | 39 => ⟨S32x256x256, .f32⟩
  | 40 => ⟨S32x256x256, .f32⟩
  | 41 => ⟨S_, .f32⟩
  | 42 => ⟨S256x256, .f32⟩
  | 43 => ⟨S256x256, .f32⟩
  | 44 => ⟨S32x256x256, .f32⟩
  | 45 => ⟨S1x256x256, .f32⟩
  | 46 => ⟨S32x256x256, .f32⟩
  | 47 => ⟨S32x256x256, .f32⟩
  | 48 => ⟨S_, .f32⟩
  | 49 => ⟨S32x256x256, .f32⟩
  | 50 => ⟨S32x256x256, .f32⟩
  | 51 => ⟨S32x256x256, .f32⟩
  | 52 => ⟨S32x256x256, .f32⟩
  | 53 => ⟨S_, .f32⟩
  | 54 => ⟨S256x256, .f32⟩
  | 55 => ⟨S256x256, .f32⟩
  | 56 => ⟨S32x256x256, .f32⟩
  | 57 => ⟨S1x256x256, .f32⟩
  | 58 => ⟨S32x256x256, .f32⟩
  | 59 => ⟨S32x256x256, .f32⟩
  | 60 => ⟨S_, .f32⟩
  | 61 => ⟨S32x256x256, .f32⟩
  | 62 => ⟨S32x256x256, .f32⟩
  | 63 => ⟨S32x256x256, .f32⟩
  | 64 => ⟨S32x256x256, .f32⟩
  | 65 => ⟨S_, .f32⟩
  | 66 => ⟨S256x256, .f32⟩
  | 67 => ⟨S256x256, .f32⟩
  | 68 => ⟨S32x256x256, .f32⟩
  | 69 => ⟨S1x256x256, .f32⟩
  | 70 => ⟨S32x256x256, .f32⟩
  | 71 => ⟨S32x256x256, .f32⟩
  | 72 => ⟨S_, .f32⟩
  | 73 => ⟨S32x256x256, .f32⟩
  | 74 => ⟨S32x256x256, .f32⟩
  | 75 => ⟨S32x256x256, .f32⟩
  | 76 => ⟨S32x256x256, .f32⟩
  | 77 => ⟨S_, .f32⟩
  | 78 => ⟨S256x256, .f32⟩
  | 79 => ⟨S256x256, .f32⟩
  | 80 => ⟨S32x256x256, .f32⟩
  | 81 => ⟨S1x256x256, .f32⟩
  | 82 => ⟨S32x256x256, .f32⟩
  | 83 => ⟨S32x256x256, .f32⟩
  | 84 => ⟨S_, .f32⟩
  | 85 => ⟨S32x256x256, .f32⟩
  | 86 => ⟨S32x256x256, .f32⟩
  | 87 => ⟨S32x256x256, .f32⟩
  | 88 => ⟨S32x256x256, .f32⟩
  | 89 => ⟨S_, .f32⟩
  | 90 => ⟨S256x256, .f32⟩
  | 91 => ⟨S256x256, .f32⟩
  | 92 => ⟨S32x256x256, .f32⟩
  | 93 => ⟨S1x256x256, .f32⟩
  | 94 => ⟨S32x256x256, .f32⟩
  | 95 => ⟨S32x256x256, .f32⟩
  | 96 => ⟨S_, .f32⟩
  | 97 => ⟨S32x256x256, .f32⟩
  | 98 => ⟨S32x256x256, .f32⟩
  | 99 => ⟨S32x256x256, .f32⟩
  | 100 => ⟨S32x1x1, .f32⟩
  | 101 => ⟨S32x256x256, .f32⟩
  | 102 => ⟨S32x256x256, .f32⟩
  | 103 => ⟨S_, .f32⟩
  | 104 => ⟨S32x256, .f32⟩
  | 105 => ⟨S_, .f32⟩
  | 106 => ⟨S32x256, .f32⟩
  | 107 => ⟨S32x256, .f32⟩
  | 108 => ⟨S32x32, .f32⟩
  | 109 => ⟨S1x32, .f32⟩
  | 110 => ⟨S32x32, .f32⟩
  | 111 => ⟨S32x32, .f32⟩
  | 112 => ⟨S_, .f32⟩
  | 113 => ⟨S32x32, .f32⟩
  | 114 => ⟨S32x32, .f32⟩
  | 115 => ⟨S32x256, .f32⟩
  | 116 => ⟨S1x256, .f32⟩
  | 117 => ⟨S32x256, .f32⟩
  | 118 => ⟨S32x256, .f32⟩
  | 119 => ⟨S32x256, .f32⟩
  | 120 => ⟨S32x256, .f32⟩
  | 121 => ⟨S_, .f32⟩
  | 122 => ⟨S32x256, .f32⟩
  | 123 => ⟨S32x256, .f32⟩
  | 124 => ⟨S_, .f32⟩
  | 125 => ⟨S32x256, .f32⟩
  | 126 => ⟨S32x256, .f32⟩
  | 127 => ⟨S32x256x1x1, .f32⟩
  | _ => ⟨S32x256x64x64, .f32⟩

abbrev hbmTy0_1 (i : Nat) : BufTy := match i % 128 with
  | 0 => ⟨S32x256x64x64, .f32⟩
  | 1 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_cst : Ref sig .tc := ⟨.hbm, 31, rfl⟩
abbrev main_call0_v5 : Ref sig .tc := ⟨.hbm, 32, rfl⟩
abbrev main_call0_call0_v0 : Ref sig .tc := ⟨.hbm, 33, rfl⟩
abbrev main_call0_v6 : Ref sig .tc := ⟨.hbm, 34, rfl⟩
abbrev main_call0_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_cst_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call1_cst : Ref sig .tc := ⟨.hbm, 112, rfl⟩
abbrev main_call1_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_14 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  reducesTo_S32x256x4096_S32x256_d2 : S32x256x4096.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x4096_0_1_2 : S32x256x1.BroadcastsInDim S32x256x4096 (![0, 1, 2] : Fin 3 → Fin S32x256x4096.rank)
  bcast_S_S32x256x256 : S_.BroadcastsInDim S32x256x256 (![] : Fin 0 → Fin S32x256x256.rank)
  bcast_S_S256x256 : S_.BroadcastsInDim S256x256 (![] : Fin 0 → Fin S256x256.rank)
  bcast_S256x256_S32x256x256_1_2 : S256x256.BroadcastsInDim S32x256x256 (![1, 2] : Fin 2 → Fin S32x256x256.rank)
  reducesTo_S32x256x256_S32_d1_2 : S32x256x256.ReducesTo [1, 2] S32
  bcast_S32_S32x1x1_0 : S32.BroadcastsInDim S32x1x1 (![0] : Fin 1 → Fin S32x1x1.rank)
  bcast_S32x1x1_S32x256x256_0_1_2 : S32x1x1.BroadcastsInDim S32x256x256 (![0, 1, 2] : Fin 3 → Fin S32x256x256.rank)
  bcast_S256x256_S1x256x256_1_2 : S256x256.BroadcastsInDim S1x256x256 (![1, 2] : Fin 2 → Fin S1x256x256.rank)
  bcast_S1x256x256_S32x256x256_0_1_2 : S1x256x256.BroadcastsInDim S32x256x256 (![0, 1, 2] : Fin 3 → Fin S32x256x256.rank)
  reducesTo_S32x256x256_S32x256_d1 : S32x256x256.ReducesTo [1] S32x256
  bcast_S_S32x256 : S_.BroadcastsInDim S32x256 (![] : Fin 0 → Fin S32x256.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256x4096_S32x256x4096_S32x256x256_2_2_1_1_0_0_wf : DotDims.WF S32x256x4096 S32x256x4096 S32x256x256 [2] [2] [1] [1] [0] [0]
  dot_S32x256x256_S32x256x256_S32x256x256_2_1_1_2_0_0_wf : DotDims.WF S32x256x256 S32x256x256 S32x256x256 [2] [1] [1] [2] [0] [0]
  dot_S32x256_S32x256_S32x32_1_1_0_0_n_n_wf : DotDims.WF S32x256 S32x256 S32x32 [1] [1] [0] [0] [] []
  dot_S32x32_S256x32_S32x256_1_1_0_0_n_n_wf : DotDims.WF S32x32 S256x32 S32x256 [1] [1] [0] [0] [] []

variable [Facts₀]

def dot_S32x256x4096_S32x256x4096_S32x256x256_2_2_1_1_0_0 : DotDims S32x256x4096 S32x256x4096 S32x256x256 where
  lhsContracting := [2]
  rhsContracting := [2]
  lhsNonContracting := [1]
  rhsNonContracting := [1]
  lhsBatch := [0]
  rhsBatch := [0]
  wf := dot_S32x256x4096_S32x256x4096_S32x256x256_2_2_1_1_0_0_wf
def dot_S32x256x256_S32x256x256_S32x256x256_2_1_1_2_0_0 : DotDims S32x256x256 S32x256x256 S32x256x256 where
  lhsContracting := [2]
  rhsContracting := [1]
  lhsNonContracting := [1]
  rhsNonContracting := [2]
  lhsBatch := [0]
  rhsBatch := [0]
  wf := dot_S32x256x256_S32x256x256_S32x256x256_2_1_1_2_0_0_wf
def dot_S32x256_S32x256_S32x32_1_1_0_0_n_n : DotDims S32x256 S32x256 S32x32 where
  lhsContracting := [1]
  rhsContracting := [1]
  lhsNonContracting := [0]
  rhsNonContracting := [0]
  lhsBatch := []
  rhsBatch := []
  wf := dot_S32x256_S32x256_S32x32_1_1_0_0_n_n_wf
def dot_S32x32_S256x32_S32x256_1_1_0_0_n_n : DotDims S32x32 S256x32 S32x256 where
  lhsContracting := [1]
  rhsContracting := [1]
  lhsNonContracting := [0]
  rhsNonContracting := [0]
  lhsBatch := []
  rhsBatch := []
  wf := dot_S32x32_S256x32_S32x256_1_1_0_0_n_n_wf

class Facts : Prop extends Facts₀ where

variable [Facts]
-- ==== Proof.KernelTerm.lean ====
import proofs.«168882_j5222680232400_1_alg».proof.Proof.Gen.KernelIdeal.Frame
import Idealize.ShloMosaic.Lib.ValueIdx
import Idealize.ShloMosaic.Lib.ValueLayout
import Idealize.ShloMosaic.Lib.Pipeline.Value

/-! The kernel program's result as a term of its five argument arrays.

The host part of the program flattens the two image axes of the input ([32,256,64,64] to [32,256,4096], position
64·h + w), transposes the two weight matrices, and gives the two bias vectors a leading unit axis. The body then runs
once per batch entry b on the [1,256,4096] slab of the flattened input whose leading coordinate is b, together
with the four small arrays whole, and its result slab becomes row b of a [32,256,4096] array; the host part finally
splits the last axis back into 64 × 64. The body's result is kept here as the generated term Gen.out0_5 of the five
blocks: nothing in this module looks inside it. -/

noncomputable section

namespace Cert.KernelIdeal.KTerm

open Idealize.ShloMosaic Idealize.ShloMosaic.ValueIdx
open Cert.KernelIdeal Cert.KernelIdeal.Gen

variable {F : FTy → Type} [FloatOps F]

/-! ## The arrays the body's windows are cut from -/

/-- The input with its two image axes flattened into one of length 4096. -/
def xflat (x : Vec F S32x256x64x64 .f32) : Vec F S32x256x4096 .f32 :=
  shapeCast S32x256x4096 x shapeCasts_S32x256x64x64_S32x256x4096

/-- The first dense layer's weights, transposed to [256, 32]. -/
def w1t (w1 : Vec F S32x256 .f32) : Vec F S256x32 .f32 :=
  transpose S256x32 [1, 0] w1 transposes_S32x256_S256x32_1_0

/-- The second dense layer's weights, transposed to [32, 256]. -/
def w2t (w2 : Vec F S256x32 .f32) : Vec F S32x256 .f32 :=
  transpose S32x256 [1, 0] w2 transposes_S256x32_S32x256_1_0

/-- The first bias as one row [1, 32]. -/
def b1r (b1 : Vec F S32 .f32) : Vec F S1x32 .f32 :=
  shapeCast S1x32 b1 shapeCasts_S32_S1x32

/-- The second bias as one row [1, 256]. -/
def b2r (b2 : Vec F S256 .f32) : Vec F S1x256 .f32 :=
  shapeCast S1x256 b2 shapeCasts_S256_S1x256

/-- Batch entry b's slab of a [32,256,4096] array, as a [1,256,4096] block. -/
def xblk (X : Vec F S32x256x4096 .f32) (b : Fin 32) : Vec F S1x256x4096 .f32 :=
  fun y => X (ix3 b (⟨(y 1).val, (y 1).isLt⟩ : Fin 256) (⟨(y 2).val, (y 2).isLt⟩ : Fin 4096))

/-- The [32,256,4096] array the grid writes: row b is the body's result on batch entry b's slab. -/
def flat (x : Vec F S32x256x64x64 .f32) (w1 : Vec F S32x256 .f32) (b1 : Vec F S32 .f32) (w2 : Vec F S256x32 .f32)
    (b2 : Vec F S256 .f32) : Vec F S32x256x4096 .f32 :=
  fun j => out0_5 (xblk (xflat x) (⟨(j 0).val, (j 0).isLt⟩ : Fin 32)) (w1t w1) (b1r b1) (w2t w2) (b2r b2)
    (ix3 (0 : Fin 1) (⟨(j 1).val, (j 1).isLt⟩ : Fin 256) (⟨(j 2).val, (j 2).isLt⟩ : Fin 4096))

/-- The program's result: that array with its last axis split back into 64 × 64. -/
def out (x : Vec F S32x256x64x64 .f32) (w1 : Vec F S32x256 .f32) (b1 : Vec F S32 .f32) (w2 : Vec F S256x32 .f32)
    (b2 : Vec F S256 .f32) : Vec F S32x256x64x64 .f32 :=
  shapeCast S32x256x64x64 (flat x w1 b1 w2 b2) shapeCasts_S32x256x4096_S32x256x64x64

/-! ## The same arrays read at an index -/

/-- Position 64·h + w of the flattened image axis. -/
abbrev hw (h w : Fin 64) : Fin 4096 := ⟨64 * h.val + w.val, by omega⟩

/-- Every position of the flattened axis is 64·h + w for one pair (h, w). -/
theorem exists_hw (s : Fin 4096) : ∃ h w : Fin 64, s = hw h w :=
  ⟨⟨s.val / 64, by omega⟩, ⟨s.val % 64, by omega⟩, Fin.ext (by show s.val = 64 * (s.val / 64) + s.val % 64; omega)⟩

theorem xblk_apply (X : Vec F S32x256x4096 .f32) (b : Fin 32) (u : Fin 1) (c : Fin 256) (s : Fin 4096) :
    xblk X b (ix3 u c s) = X (ix3 b c s) := rfl

theorem flat_apply (x : Vec F S32x256x64x64 .f32) (w1 : Vec F S32x256 .f32) (b1 : Vec F S32 .f32)
    (w2 : Vec F S256x32 .f32) (b2 : Vec F S256 .f32) (b : Fin 32) (c : Fin 256) (s : Fin 4096) :
    flat x w1 b1 w2 b2 (ix3 b c s)
      = out0_5 (xblk (xflat x) b) (w1t w1) (b1r b1) (w2t w2) (b2r b2) (ix3 (0 : Fin 1) c s) := rfl

/-- The flattened input at (b, c, 64·h + w) is the input at (b, c, h, w). -/
theorem xflat_apply (x : Vec F S32x256x64x64 .f32) (b : Fin 32) (c : Fin 256) (h w : Fin 64) :
    xflat x (ix3 b c (hw h w)) = x (ix4 b c h w) :=
  shapeCast_apply x _ _ _ (by
    rw [Shape.rowMajor_val_four, Shape.rowMajor_val_three]
    show ((b.val * 256 + c.val) * 64 + h.val) * 64 + w.val = (b.val * 256 + c.val) * 4096 + (64 * h.val + w.val)
    omega)

/-- Batch entry b's slab of the flattened input at (0, c, 64·h + w) is the input at (b, c, h, w). -/
theorem xblk_xflat_apply (x : Vec F S32x256x64x64 .f32) (b : Fin 32) (c : Fin 256) (h w : Fin 64) :
    xblk (xflat x) b (ix3 (0 : Fin 1) c (hw h w)) = x (ix4 b c h w) :=
  (xblk_apply (xflat x) b 0 c (hw h w)).trans (xflat_apply x b c h w)

/-- The result at (b, c, h, w) is the body's result on batch entry b's slab at (0, c, 64·h + w). -/
theorem out_apply (x : Vec F S32x256x64x64 .f32) (w1 : Vec F S32x256 .f32) (b1 : Vec F S32 .f32)
    (w2 : Vec F S256x32 .f32) (b2 : Vec F S256 .f32) (b : Fin 32) (c : Fin 256) (h w : Fin 64) :
    out x w1 b1 w2 b2 (ix4 b c h w)
      = out0_5 (xblk (xflat x) b) (w1t w1) (b1r b1) (w2t w2) (b2r b2) (ix3 (0 : Fin 1) c (hw h w)) :=
  (shapeCast_apply (flat x w1 b1 w2 b2) _ _ (ix3 b c (hw h w)) (by
    rw [Shape.rowMajor_val_four, Shape.rowMajor_val_three]
    show (b.val * 256 + c.val) * 4096 + (64 * h.val + w.val) = ((b.val * 256 + c.val) * 64 + h.val) * 64 + w.val
    omega)).trans (flat_apply x w1 b1 w2 b2 b c (hw h w))

/-- The transposed first weights at (c, o) are the weights at (o, c). -/
theorem w1t_apply (w1 : Vec F S32x256 .f32) (c : Fin 256) (o : Fin 32) : w1t w1 (ix2 c o) = w1 (ix2 o c) :=
  transpose_ix2_apply w1 _ c o

/-- The transposed second weights at (o, c) are the weights at (c, o). -/
theorem w2t_apply (w2 : Vec F S256x32 .f32) (o : Fin 32) (c : Fin 256) : w2t w2 (ix2 o c) = w2 (ix2 c o) :=
  transpose_ix2_apply w2 _ o c

/-- The first bias's row at (0, o) is the bias at o. -/
theorem b1r_apply (b1 : Vec F S32 .f32) (u : Fin 1) (o : Fin 32) : b1r b1 (ix2 u o) = b1 (ix1 o) :=
  shapeCast_a_1a_apply b1 _ u o

/-- The second bias's row at (0, c) is the bias at c. -/
theorem b2r_apply (b2 : Vec F S256 .f32) (u : Fin 1) (c : Fin 256) : b2r b2 (ix2 u c) = b2 (ix1 c) :=
  shapeCast_a_1a_apply b2 _ u c

end Cert.KernelIdeal.KTerm

end
-- ==== Proof.KernelRun.lean ====
import proofs.«168882_j5222680232400_1_alg».proof.Proof.Gen.KernelIdeal.Frame
import proofs.«168882_j5222680232400_1_alg».proof.Proof.KernelTerm
import Idealize.ShloMosaic.Lib.Pipeline.Value
import Idealize.ShloMosaic.Lib.StableHlo.Run
import Idealize.ShloMosaic.Lib.Tactic

/-! The kernel program's run, read as a value.

The grid has 32 points, one per batch entry. At point t the input window holds slab t of the flattened input, the four
small windows hold the transposed weights and the bias rows whole, and the body's result is written back as slab t of a
[32,256,4096] array. The slabs of the 32 points tile that array, so after the region it holds, at (b, c, s), the body's
result on slab b at (0, c, s): the array KTerm.flat of the arguments. The one host operation after the region splits the
last axis into 64 × 64, which gives KTerm.out. The argument arrays are never written. -/

set_option maxRecDepth 16384

noncomputable section

namespace Cert.KernelIdeal.KRun

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-! ## The arrays the region finds

Five host operations run before the region: each of the five staged arrays is one layout operation of one argument. -/

theorem V_v0 (c : Dev nD) : (V m c main_v0 : Vec F S32x256x4096 .f32) = KTerm.xflat (m ((c.tc : Thread nD τ).loc main_arg0)) := by
  show StableHlo.after hostOps0 (fun b => m (c, b)) (Proc.devRef .tc main_v0) = _
  after_results
  rfl

theorem V_v1 (c : Dev nD) : (V m c main_v1 : Vec F S256x32 .f32) = KTerm.w1t (m ((c.tc : Thread nD τ).loc main_arg1)) := by
  show StableHlo.after hostOps0 (fun b => m (c, b)) (Proc.devRef .tc main_v1) = _
  after_results
  rfl

theorem V_v2 (c : Dev nD) : (V m c main_v2 : Vec F S32x256 .f32) = KTerm.w2t (m ((c.tc : Thread nD τ).loc main_arg3)) := by
  show StableHlo.after hostOps0 (fun b => m (c, b)) (Proc.devRef .tc main_v2) = _
  after_results
  rfl

theorem V_v3 (c : Dev nD) : (V m c main_v3 : Vec F S1x32 .f32) = KTerm.b1r (m ((c.tc : Thread nD τ).loc main_arg2)) := by
  show StableHlo.after hostOps0 (fun b => m (c, b)) (Proc.devRef .tc main_v3) = _
  after_results
  rfl

theorem V_v4 (c : Dev nD) : (V m c main_v4 : Vec F S1x256 .f32) = KTerm.b2r (m ((c.tc : Thread nD τ).loc main_arg4)) := by
  show StableHlo.after hostOps0 (fun b => m (c, b)) (Proc.devRef .tc main_v4) = _
  after_results
  rfl

/-! ## The windows' blocks -/

/-- The printed index maps, decided once over the 32 grid points: the input slab's and the output slab's block index is
    (t, 0, 0); the four small arrays are taken whole, at block (0, 0). -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Window 0's block at point t of any [32,256,4096] array is the array's slab t. -/
theorem blk0_read (X : Vec F S32x256x4096 .f32) (t : Fin cfg0.N) (b : Fin 32) (hb : b.val = t.val) :
    ((cfg0.win 0).blk t).view.read (Elt F) X = KTerm.xblk X b := by
  obtain ⟨e0, e1, e2, -⟩ := idx_facts t
  funext y
  rw [View.read_apply]
  show X (((cfg0.win 0).blk t).view.emb y) = X (ix3 b (⟨(y 1).val, (y 1).isLt⟩ : Fin 256) (⟨(y 2).val, (y 2).isLt⟩ : Fin 4096))
  refine congrArg X (funext fun a => Fin.ext ?_)
  have h0 : (y 0).val < 1 := (y 0).isLt
  match a with
  | ⟨0, _⟩ => show win0_0.index t (0 : Fin 3) * 1 + 1 * (y 0).val = b.val; omega
  | ⟨1, _⟩ => show win0_0.index t (1 : Fin 3) * 256 + 1 * (y 1).val = (y 1).val; omega
  | ⟨2, _⟩ => show win0_0.index t (2 : Fin 3) * 4096 + 1 * (y 2).val = (y 2).val; omega

/-- Window 5's block at point t of any [32,256,4096] array is the array's slab t. -/
theorem blk5_read (X : Vec F S32x256x4096 .f32) (t : Fin cfg0.N) (b : Fin 32) (hb : b.val = t.val) :
    ((cfg0.win 5).blk t).view.read (Elt F) X = KTerm.xblk X b := by
  obtain ⟨-, -, -, e0, e1, e2, -⟩ := idx_facts t
  funext y
  rw [View.read_apply]
  show X (((cfg0.win 5).blk t).view.emb y) = X (ix3 b (⟨(y 1).val, (y 1).isLt⟩ : Fin 256) (⟨(y 2).val, (y 2).isLt⟩ : Fin 4096))
  refine congrArg X (funext fun a => Fin.ext ?_)
  have h0 : (y 0).val < 1 := (y 0).isLt
  match a with
  | ⟨0, _⟩ => show win0_5.index t (0 : Fin 3) * 1 + 1 * (y 0).val = b.val; omega
  | ⟨1, _⟩ => show win0_5.index t (1 : Fin 3) * 256 + 1 * (y 1).val = (y 1).val; omega
  | ⟨2, _⟩ => show win0_5.index t (2 : Fin 3) * 4096 + 1 * (y 2).val = (y 2).val; omega

/-- Windows 1 to 4 take their arrays whole at every point. -/
theorem blk1_read (A : Vec F S256x32 .f32) (t : Fin cfg0.N) : ((cfg0.win 1).blk t).view.read (Elt F) A = A := by
  obtain ⟨-, -, -, -, -, -, e0, e1, -⟩ := idx_facts t
  funext y
  rw [View.read_apply]
  show A (((cfg0.win 1).blk t).view.emb y) = A y
  refine congrArg A (funext fun a => Fin.ext ?_)
  match a with
  | ⟨0, _⟩ => show win0_1.index t (0 : Fin 2) * 256 + 1 * (y 0).val = (y 0).val; omega
  | ⟨1, _⟩ => show win0_1.index t (1 : Fin 2) * 32 + 1 * (y 1).val = (y 1).val; omega

theorem blk2_read (A : Vec F S1x32 .f32) (t : Fin cfg0.N) : ((cfg0.win 2).blk t).view.read (Elt F) A = A := by
  obtain ⟨-, -, -, -, -, -, -, -, e0, e1, -⟩ := idx_facts t
  funext y
  rw [View.read_apply]
  show A (((cfg0.win 2).blk t).view.emb y) = A y
  refine congrArg A (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

theorem blk3_read (A : Vec F S32x256 .f32) (t : Fin cfg0.N) : ((cfg0.win 3).blk t).view.read (Elt F) A = A := by
  obtain ⟨-, -, -, -, -, -, -, -, -, -, e0, e1, -⟩ := idx_facts t
  funext y
  rw [View.read_apply]
  show A (((cfg0.win 3).blk t).view.emb y) = A y
  refine congrArg A (funext fun a => Fin.ext ?_)
  match a with
  | ⟨0, _⟩ => show win0_3.index t (0 : Fin 2) * 32 + 1 * (y 0).val = (y 0).val; omega
  | ⟨1, _⟩ => show win0_3.index t (1 : Fin 2) * 256 + 1 * (y 1).val = (y 1).val; omega

theorem blk4_read (A : Vec F S1x256 .f32) (t : Fin cfg0.N) : ((cfg0.win 4).blk t).view.read (Elt F) A = A := by
  obtain ⟨-, -, -, -, -, -, -, -, -, -, -, -, e0, e1⟩ := idx_facts t
  funext y
  rw [View.read_apply]
  show A (((cfg0.win 4).blk t).view.emb y) = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## Each input block at a point, as a term of the arguments -/

theorem iblk0 (c : Dev nD) (t : Fin cfg0.N) (b : Fin 32) (hb : b.val = t.val) :
    iblk m c 0 t = KTerm.xblk (KTerm.xflat (m ((c.tc : Thread nD τ).loc main_arg0))) b := by
  unfold iblk
  show ((cfg0.win 0).blk t).view.read (Elt F) (V m c main_v0) = _
  rw [V_v0 m c]
  exact blk0_read _ t b hb

theorem iblk1 (c : Dev nD) (t : Fin cfg0.N) : iblk m c 1 t = KTerm.w1t (m ((c.tc : Thread nD τ).loc main_arg1)) := by
  unfold iblk
  show ((cfg0.win 1).blk t).view.read (Elt F) (V m c main_v1) = _
  rw [V_v1 m c]
  exact blk1_read _ t

theorem iblk2 (c : Dev nD) (t : Fin cfg0.N) : iblk m c 2 t = KTerm.b1r (m ((c.tc : Thread nD τ).loc main_arg2)) := by
  unfold iblk
  show ((cfg0.win 2).blk t).view.read (Elt F) (V m c main_v3) = _
  rw [V_v3 m c]
  exact blk2_read _ t

theorem iblk3 (c : Dev nD) (t : Fin cfg0.N) : iblk m c 3 t = KTerm.w2t (m ((c.tc : Thread nD τ).loc main_arg3)) := by
  unfold iblk
  show ((cfg0.win 3).blk t).view.read (Elt F) (V m c main_v2) = _
  rw [V_v2 m c]
  exact blk3_read _ t

theorem iblk4 (c : Dev nD) (t : Fin cfg0.N) : iblk m c 4 t = KTerm.b2r (m ((c.tc : Thread nD τ).loc main_arg4)) := by
  unfold iblk
  show ((cfg0.win 4).blk t).view.read (Elt F) (V m c main_v4) = _
  rw [V_v4 m c]
  exact blk4_read _ t

/-! ## What a point writes back, the cover, the array after the region -/

/-- Slab b of the array of body results is the body's result on slab b of the flattened input. -/
theorem xblk_flat (x : Vec F S32x256x64x64 .f32) (w1 : Vec F S32x256 .f32) (b1 : Vec F S32 .f32)
    (w2 : Vec F S256x32 .f32) (b2 : Vec F S256 .f32) (b : Fin 32) :
    KTerm.xblk (KTerm.flat x w1 b1 w2 b2) b
      = out0_5 (KTerm.xblk (KTerm.xflat x) b) (KTerm.w1t w1) (KTerm.b1r b1) (KTerm.w2t w2) (KTerm.b2r b2) := by
  funext y
  obtain ⟨u, c, s, rfl⟩ : ∃ (u : Fin 1) (c : Fin 256) (s : Fin 4096), y = ix3 u c s := ⟨y 0, y 1, y 2, eq_ix3 y⟩
  obtain rfl : u = 0 := Subsingleton.elim _ _
  rw [KTerm.xblk_apply, KTerm.flat_apply]

/-- What point t writes back is slab t of the array of body results. -/
theorem flushed_eq (c : Dev nD) (t : Fin cfg0.N) :
    (dats m 0 c).flushed 5 t = ((cfg0.win 5).blk t).view.read (Elt F)
      (KTerm.flat (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  have hN : grid0.N = 32 := N_0
  have ht : t.val < 32 := Nat.lt_of_lt_of_eq t.isLt N_0
  show (cfg0.win 5).cut (grid0.coords t) ((dats m 0 c).after 5 t) = _
  rw [after0_5, iblk0 m c t ⟨t.val, ht⟩ rfl, iblk1 m c t, iblk2 m c t, iblk3 m c t, iblk4 m c t,
    blk5_read _ t ⟨t.val, ht⟩ rfl, xblk_flat]
  rfl

/-- An index of the array is in point t's block iff each coordinate is in the block's range on its axis. -/
theorem mem_blk5 (t : Fin cfg0.N) (i : S32x256x4096.Idx) :
    i ∈ ((cfg0.win 5).blk t).view.set ↔ ∀ a : Fin 3, win0_5.index t a * S1x256x4096.size a ≤ (i a).val ∧ (i a).val < win0_5.index t a * S1x256x4096.size a + S1x256x4096.size a := by
  show i ∈ ((View.whole main_v5).slice (win0_5.rect t)).set ↔ _
  rw [View.set_slice_whole, Rect.mem_set_unit]
  exact Iff.rfl

/-- Every index of the array is in the block of the point named by its leading coordinate. -/
theorem cover (i : S32x256x4096.Idx) :
    ∃ t : Fin cfg0.N, (cfg0.win 5).flush t = true ∧ i ∈ ((cfg0.win 5).blk t).view.set := by
  have hN : grid0.N = 32 := N_0
  have h0 : (i 0).val < 32 := (i 0).isLt
  have h1 : (i 1).val < 256 := (i 1).isLt
  have h2 : (i 2).val < 4096 := (i 2).isLt
  have ht : (i 0).val < cfg0.N := by show (i 0).val < grid0.N; omega
  obtain ⟨-, -, -, e0, e1, e2, -⟩ := idx_facts ⟨(i 0).val, ht⟩
  refine ⟨⟨(i 0).val, ht⟩, flush0_5 _, ?_⟩
  rw [mem_blk5]
  intro a
  match a with
  | ⟨0, _⟩ =>
    show win0_5.index ⟨(i 0).val, ht⟩ (0 : Fin 3) * 1 ≤ (i 0).val ∧ (i 0).val < win0_5.index ⟨(i 0).val, ht⟩ (0 : Fin 3) * 1 + 1
    rw [e0]; show (i 0).val * 1 ≤ (i 0).val ∧ (i 0).val < (i 0).val * 1 + 1; omega
  | ⟨1, _⟩ =>
    show win0_5.index ⟨(i 0).val, ht⟩ (1 : Fin 3) * 256 ≤ (i 1).val ∧ (i 1).val < win0_5.index ⟨(i 0).val, ht⟩ (1 : Fin 3) * 256 + 256
    rw [e1]; omega
  | ⟨2, _⟩ =>
    show win0_5.index ⟨(i 0).val, ht⟩ (2 : Fin 3) * 4096 ≤ (i 2).val ∧ (i 2).val < win0_5.index ⟨(i 0).val, ht⟩ (2 : Fin 3) * 4096 + 4096
    rw [e2]; omega

/-- So after the region the output array holds the array of body results. -/
theorem final (c : Dev nD) : (dats m 0 c).arrAt 5 cfg0.N
    = KTerm.flat (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (dats m 0 c).arrAt_eq_of_cover 5 _ (fun t _ => flushed_eq m c t) cover

/-! ## The host operation after the region, and the run -/

/-- The last host operation splits the array of body results' last axis back into 64 × 64. -/
theorem tail (c : Dev nD) : Pipeline.afterTail₀ cfgs (dats m) 0 (V0 m) [hostOps1] c main_v6
    = KTerm.out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = KTerm.flat (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
    (Pipeline.withArrays_arr spec0 launch0.win.arr_inj c _ _ 5).trans (final m c)
  rw [e]
  rfl

/-- THE KERNEL PROGRAM'S RUN, READ: from any memory with zero counters every weakly fair execution of @main terminates with
    the result array holding KTerm.out of the five argument arrays, and the argument arrays as launched. -/
theorem run : θ_run defs (onTc (τ := τ) (main (F := F))) ⟨m, fun _ => 0, ρ⟩ fun r => ∀ c : Dev nD,
      r.2.mem ((c.tc : Thread nD τ).loc main_v6)
        = KTerm.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v6 (Pipeline.mem_restRefs_of main_v6 (by decide) (by decide))).trans (tail m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.KRun

end
-- ==== Proof.SocaSpec.lean ====
/-
  The channel gate of second-order channel attention as ONE function on the extended reals, over plain matrices
  (`Fin n → Fin m → EReal`): rows centred by their mean, the covariance `Xc · Xcᵀ / M`, its trace, the
  trace-normalised Newton–Schulz iteration (five steps: `T = ½ (3 I − Z Y)`, `Y ← Y T`, `Z ← T Z`, the last step
  only `Y`), the square root rescaled by `√trace`, the mean down each column, two dense layers (a rectified one
  and a logistic one). Every sum is a finite sum over a `Fin`; every quotient is the extended reals' total
  quotient; the float constants stay as their bit patterns (both programs print the same ones).
-/
import Idealize.ShloMosaic.PureOps.Ideal.Laws
import Idealize.ShloMosaic.Lib.ValueIdx

noncomputable section

namespace Cert.Soca

open Idealize.ShloMosaic

/-- A matrix of extended reals. -/
abbrev Mat (n m : Nat) := Fin n → Fin m → EReal

/-- The matrix product, entry by entry. -/
def mmul {n k m : Nat} (A : Mat n k) (B : Mat k m) : Mat n m := fun i j => ∑ l : Fin k, A i l * B l j

/-- The identity matrix. -/
def eyeM : Mat 256 256 := fun i j => if i = j then 1 else 0

/-- The constants, as both programs print them: 3, ½, 4096, 256, 0. -/
def c3 : EReal := Ideal.ofBits .f32 0x40400000#32
def cH : EReal := Ideal.ofBits .f32 0x3F000000#32
def cM : EReal := Ideal.ofBits .f32 0x45800000#32
def cC : EReal := Ideal.ofBits .f32 0x43800000#32
def c0 : EReal := Ideal.ofBits .f32 0x00000000#32

/-- `T = ½ (3 I − Z Y)`. -/
def tstep (Z Y : Mat 256 256) : Mat 256 256 := fun i j => cH * (c3 * eyeM i j - mmul Z Y i j)

/-- One full Newton–Schulz step on the pair `(Y, Z)`: `(Y T, T Z)`. -/
def step (p : Mat 256 256 × Mat 256 256) : Mat 256 256 × Mat 256 256 :=
  (mmul p.1 (tstep p.2 p.1), mmul (tstep p.2 p.1) p.2)

/-- Five steps from `(Y₀, I)`, the last one only of `Y`. -/
def y5 (Y0 : Mat 256 256) : Mat 256 256 :=
  mmul (step (step (step (step (Y0, eyeM))))).1
    (tstep (step (step (step (step (Y0, eyeM))))).2 (step (step (step (step (Y0, eyeM))))).1)

/-- A row minus its mean. -/
def cen (X : Mat 256 4096) : Mat 256 4096 := fun c s => X c s - Ideal.div (∑ s' : Fin 4096, X c s') cM

/-- The covariance of the rows. -/
def covM (X : Mat 256 4096) : Mat 256 256 := fun c d => Ideal.div (∑ s : Fin 4096, cen X c s * cen X d s) cM

/-- The trace, as the sum of every entry against the identity's. -/
def trM (A : Mat 256 256) : EReal := ∑ i : Fin 256, ∑ j : Fin 256, A i j * eyeM i j

/-- The matrix over its trace. -/
def y0 (A : Mat 256 256) : Mat 256 256 := fun i j => Ideal.div (A i j) (trM A)

/-- The iterated square root rescaled by the root of the trace. -/
def rootM (A : Mat 256 256) : Mat 256 256 := fun i j => y5 (y0 A) i j * Ideal.sqrt (trM A)

/-- The mean down each column. -/
def pool (S : Mat 256 256) : Fin 256 → EReal := fun d => Ideal.div (∑ c : Fin 256, S c d) cC

/-- The first dense layer, rectified. -/
def hidden (v : Fin 256 → EReal) (W1 : Mat 32 256) (B1 : Fin 32 → EReal) : Fin 32 → EReal :=
  fun o => max ((∑ c : Fin 256, v c * W1 o c) + B1 o) c0

/-- The second dense layer, through the logistic function. -/
def gate (h : Fin 32 → EReal) (W2 : Mat 256 32) (B2 : Fin 256 → EReal) : Fin 256 → EReal :=
  fun c => Ideal.logistic ((∑ o : Fin 32, h o * W2 c o) + B2 c)

/-- The whole gate of one batch element from its `256 × 4096` slab and the two layers' weights. -/
def gateOf (X : Mat 256 4096) (W1 : Mat 32 256) (B1 : Fin 32 → EReal) (W2 : Mat 256 32) (B2 : Fin 256 → EReal) :
    Fin 256 → EReal :=
  gate (hidden (pool (rootM (covM X))) W1 B1) W2 B2

/-- Batch `b`'s slab of a `[32, 256, 64, 64]` array, its two trailing axes flattened row-major. -/
def slab (x : (⟨4, ![32, 256, 64, 64]⟩ : Shape).Idx → EReal) (b : Fin 32) : Mat 256 4096 :=
  fun c s => x (ValueIdx.ix4 b c ⟨s.val / 64, by have := s.isLt; omega⟩ ⟨s.val % 64, Nat.mod_lt _ (by decide)⟩)

/-- The result: every entry of `x` times its batch's and channel's gate. -/
def G (x : (⟨4, ![32, 256, 64, 64]⟩ : Shape).Idx → EReal) (w1 : (⟨2, ![32, 256]⟩ : Shape).Idx → EReal)
    (b1 : (⟨1, ![32]⟩ : Shape).Idx → EReal) (w2 : (⟨2, ![256, 32]⟩ : Shape).Idx → EReal)
    (b2 : (⟨1, ![256]⟩ : Shape).Idx → EReal) : (⟨4, ![32, 256, 64, 64]⟩ : Shape).Idx → EReal :=
  fun j => gateOf (slab x (j 0)) (fun o c => w1 (ValueIdx.ix2 o c)) (fun o => b1 (ValueIdx.ix1 o))
      (fun c o => w2 (ValueIdx.ix2 c o)) (fun c => b2 (ValueIdx.ix1 c)) (j 1) * x j

/-- The identity's entry times anything is that thing on the diagonal and zero off it. -/
theorem mul_eye (a : EReal) (i j : Fin 256) : a * eyeM i j = if i = j then a else 0 := by
  unfold eyeM; split <;> simp

/-- The f32 pattern of 1. -/
theorem ofBits_one : Ideal.ofBits .f32 0x3F800000#32 = (1 : EReal) := IdealRules.sign_bit.ideal_onePat .f32

end Cert.Soca

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«168882_j5222680232400_1_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibSumIdx3.lean ====
/-
  A finite sum over the index set of a rank-3 shape is the triple sum over its three coordinate ranges: the index set is
  the product of the ranges (`idxEquiv3`), every index being `ix3` of its coordinates.
-/
import Idealize.ShloMosaic.Lib.ValueIdx

namespace Idealize.ShloMosaic.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a leading axis of extent one: the double sum over the other two coordinates. -/
theorem sum_idx3_unit {M : Type*} [AddCommMonoid M] {n1 n2 : Nat} (f : (⟨3, ![1, n1, n2]⟩ : Shape).Idx → M) :
    ∑ i, f i = ∑ b : Fin n1, ∑ c : Fin n2, f (ix3 (0 : Fin 1) b c) := by
  rw [sum_idx3, Fin.sum_univ_one]

end Idealize.ShloMosaic.SumIdx3
-- ==== Proof.KMath.lean ====
/-
  The kernel body's arithmetic read as matrices of extended reals: each payload of the body (the centred slab's
  covariance, the identity from two iotas, the trace, the Newton–Schulz products, the column means, the two dense
  layers) is, entry by entry, the corresponding function of `Cert.Soca`.
-/
import proofs.«168882_j5222680232400_1_alg».proof.Proof.Gen.KernelIdeal.Frame
import proofs.«168882_j5222680232400_1_alg».proof.Proof.SocaSpec
import proofs.«168882_j5222680232400_1_alg».proof.Proof.LibPlainDot
import proofs.«168882_j5222680232400_1_alg».proof.Proof.LibDotTransposedRhs
import proofs.«168882_j5222680232400_1_alg».proof.Proof.LibRowColumn
import proofs.«168882_j5222680232400_1_alg».proof.Proof.LibRowReduce
import proofs.«168882_j5222680232400_1_alg».proof.Proof.LibColumn
import proofs.«168882_j5222680232400_1_alg».proof.Proof.LibSumIdx3
import Idealize.ShloMosaic.Lib.ValueLayout
import Idealize.ShloMosaic.Lib.Pipeline.Value

noncomputable section

namespace Cert.KernelIdeal.KMath

open Idealize.ShloMosaic Idealize.ShloMosaic.ValueIdx Cert.KernelIdeal Cert.KernelIdeal.Gen Cert.Soca

/-- A rank-2 vector read as a matrix. -/
def toM {n m : Nat} (v : (⟨2, ![n, m]⟩ : Shape).Idx → EReal) : Mat n m := fun i j => v (ix2 i j)

/-- A plain product into the zero accumulator is the matrix product. -/
theorem toM_mm (A B : FVec Ideal S256x256 .f32) :
    toM (matmul dot_S256x256_S256x256_S256x256_1_0_0_1_n_n none A B (constant S256x256 .f32 0x00000000#32))
      = mmul (toM A) (toM B) := by
  funext i j
  exact PlainDot.matmul_apply_ix2 none A B i j

/-- Two coordinates below 256 have equal 32-bit words exactly when they are equal. -/
theorem eye_bit (i j : Fin 256) :
    IntOp.cmpi CmpIPredicate.eq (BitVec.ofNat 32 i.val) (BitVec.ofNat 32 j.val) = if i = j then 1#1 else 0#1 := by
  by_cases h : i = j
  · subst h; simp [IntOp.cmpi]
  · have hne : BitVec.ofNat 32 i.val ≠ BitVec.ofNat 32 j.val := by
      intro hh
      have h2 := congrArg BitVec.toNat hh
      simp only [BitVec.toNat_ofNat] at h2
      have hi := i.isLt; have hj := j.isLt
      rw [Nat.mod_eq_of_lt (by omega), Nat.mod_eq_of_lt (by omega)] at h2
      exact h (Fin.ext h2)
    have hb : (BitVec.ofNat 32 i.val == BitVec.ofNat 32 j.val) = false := beq_eq_false_iff_ne.mpr hne
    simp [IntOp.cmpi, h, hb]

/-- The two iotas compared and converted are the identity matrix. -/
theorem toM_eye : toM (k0_pay4 (F := Ideal)) = eyeM := by
  funext i j
  unfold toM k0_pay4 eyeM
  simp only [sitofp_apply, extui_apply, cmpi, addi, broadcast_apply]
  have h0 : iota Kind.tc S256x256 32 [0] iota_S256x256_d0_w32 (ix2 i j) = BitVec.ofNat 32 i.val :=
    iota_single_apply .tc S256x256 32 0 _ (ix2 i j)
  have h1 : iota Kind.tc S256x256 32 [1] iota_S256x256_d1_w32 (ix2 i j) = BitVec.ofNat 32 j.val :=
    iota_single_apply .tc S256x256 32 1 _ (ix2 i j)
  rw [h0, h1]
  have h2 : IntOp.addi (BitVec.ofNat 32 i.val) 0#32 = BitVec.ofNat 32 i.val := by simp [IntOp.addi]
  rw [h2, eye_bit]
  show (((BitVec.setWidth 32 (if i = j then 1#1 else 0#1)).toInt : ℝ) : EReal) = _
  split
  · have : (BitVec.setWidth 32 1#1).toInt = 1 := by decide
    rw [this]; simp
  · have : (BitVec.setWidth 32 0#1).toInt = 0 := by decide
    rw [this]; simp

/-- The block's one batch read as a `256 × 4096` matrix. -/
def X0 (v0 : Vec Ideal S1x256x4096 .f32) : Mat 256 4096 := fun c s => v0 (ix3 (0 : Fin 1) c s)

theorem toM_pay2 (v0 : Vec Ideal S1x256x4096 .f32) : toM (k0_pay2 v0) = X0 v0 := by
  funext c s
  exact shapeCast_1ab_ab_apply v0 _ c s

/-- A row sum of the slab, with the side conditions typed as they are printed. -/
theorem rowsum (src : FVec Ideal S256x4096 .f32) (hφ : FKind.Formats .f32)
    (hacc : (0x00000000#32 : BitVec 32) = 0x00000000#32) (r : Fin 256) :
    multiReduction .add [1] S256 src 0x00000000#32 reduces_S256x4096_S256 hφ hacc (ix1 r) = ∑ k : Fin 4096, src (ix2 r k) :=
  RowReduce.multiReduction_add_cols src _ _ hφ hacc r

theorem dotT_eq : dot_S256x4096_S256x4096_S256x256_1_1_0_0_n_n = DotDims.transposedRhs 256 4096 256 := rfl

/-- The centred rows' covariance. -/
theorem toM_pay3 (v0 : Vec Ideal S1x256x4096 .f32) : toM (k0_pay3 v0) = covM (X0 v0) := by
  funext c d
  unfold toM k0_pay3 covM cen
  dsimp only
  rw [dotT_eq]
  simp only [divf_apply, broadcast_apply, DotTransposedRhs.matmul_apply_ix2, truncf_apply, subf_apply,
    Column.broadcastTo_a1_ab_apply, Column.shapeCast_a_a1_apply, RowReduce.multiReduction_add_cols]
  have hp : ∀ (c : Fin 256) (s : Fin 4096), k0_pay2 v0 (ix2 c s) = X0 v0 c s :=
    fun c s => congrFun (congrFun (toM_pay2 v0) c) s
  simp only [hp, Ideal.ofBits_def]
  rw [rowsum (k0_pay2 v0) _ _ c, rowsum (k0_pay2 v0) _ _ d]
  simp only [hp]
  rfl

/-- The trace: the sum of every entry of the covariance against the identity's, broadcast to `[1, 1]`. -/
theorem pay5_apply (v0 : Vec Ideal S1x256x4096 .f32) (i : S1x1.Idx) : k0_pay5 v0 i = trM (covM (X0 v0)) := by
  unfold k0_pay5
  dsimp only
  rw [broadcast_apply]
  unfold extractAt
  refine (shapeCast_apply _ _ _ (ix1 (0 : Fin 1)) ?_).trans ?_
  · rw [Shape.rowMajor_val_one, Shape.rowMajor_val_three]; rfl
  refine (Ideal.multiReduction_add_total _ _ _ (fun b => ?_) _ _ _).trans ?_
  · match b with | ⟨0, _⟩ => rfl
  rw [SumIdx3.sum_idx3_unit]
  unfold trM
  refine Finset.sum_congr rfl fun r _ => Finset.sum_congr rfl fun c _ => ?_
  rw [shapeCast_ab_1ab_apply, mulf_apply]
  exact congrArg₂ (· * ·) (congrFun (congrFun (toM_pay3 v0) r) c) (congrFun (congrFun toM_eye r) c)

/-- `½ (3 E − Z Y)` with `E` still a parameter. -/
def tstepE (E Z Y : Mat 256 256) : Mat 256 256 := fun i j => cH * (c3 * E i j - mmul Z Y i j)

theorem tstep_eq (Z Y : Mat 256 256) : tstep Z Y = tstepE eyeM Z Y := rfl

/-- The body's `0.5 * (3.0 * E − Z · Y)` read as matrices. -/
theorem toM_tstep (E Z Y : FVec Ideal S256x256 .f32) :
    toM (mulf (broadcast S256x256 (Scalar.ofBits .f32 0x3F000000#32))
        (subf (mulf (broadcast S256x256 (Scalar.ofBits .f32 0x40400000#32)) E)
          (matmul dot_S256x256_S256x256_S256x256_1_0_0_1_n_n none Z Y (constant S256x256 .f32 0x00000000#32))))
      = tstepE (toM E) (toM Z) (toM Y) := by
  funext i j
  unfold tstepE
  rw [← toM_mm]
  rfl

/-- The covariance over its trace. -/
theorem toM_pay6 (v0 : Vec Ideal S1x256x4096 .f32) : toM (k0_pay6 v0) = y0 (covM (X0 v0)) := by
  funext i j
  unfold toM k0_pay6 y0
  rw [divf_apply]
  refine congrArg₂ Ideal.div (congrFun (congrFun (toM_pay3 v0) i) j) ?_
  unfold broadcastTo
  exact pay5_apply v0 _

theorem toM_pay7 (v0 : Vec Ideal S1x256x4096 .f32) :
    toM (k0_pay7 v0) = tstep eyeM (toM (k0_pay6 v0)) :=
  (toM_tstep (k0_pay4 (F := Ideal)) (k0_pay4 (F := Ideal)) (k0_pay6 v0)).trans (by rw [toM_eye]; rfl)

theorem toM_pay8 (v0 : Vec Ideal S1x256x4096 .f32) :
    toM (k0_pay8 v0) = mmul (toM (k0_pay6 v0)) (toM (k0_pay7 v0)) := toM_mm _ _

theorem toM_pay9 (v0 : Vec Ideal S1x256x4096 .f32) :
    toM (k0_pay9 v0) = mmul (toM (k0_pay7 v0)) eyeM := (toM_mm _ _).trans (by rw [toM_eye])

theorem toM_pay10 (v0 : Vec Ideal S1x256x4096 .f32) :
    toM (k0_pay10 v0) = tstep (toM (k0_pay9 v0)) (toM (k0_pay8 v0)) :=
  (toM_tstep (k0_pay4 (F := Ideal)) (k0_pay9 v0) (k0_pay8 v0)).trans (by rw [toM_eye]; rfl)

/-- The first step of the iteration, from the payloads. -/
theorem pay89_step (v0 : Vec Ideal S1x256x4096 .f32) :
    (toM (k0_pay8 v0), toM (k0_pay9 v0)) = step (y0 (covM (X0 v0)), eyeM) := by
  rw [toM_pay8, toM_pay9, toM_pay7, toM_pay6]; rfl

/-- The iteration's last three and a half steps. -/
def tailY (p : Mat 256 256 × Mat 256 256) : Mat 256 256 :=
  mmul (step (step (step p))).1 (tstep (step (step (step p))).2 (step (step (step p))).1)

theorem y5_eq (Y0 : Mat 256 256) : y5 Y0 = tailY (step (Y0, eyeM)) := rfl

/-- A `[1, 256]` row times a `[256, 32]` matrix plus a `[1, 32]` row, at an entry. -/
theorem dense1_apply (v : FVec Ideal S1x256 .f32) (w : Vec Ideal S256x32 .f32) (bb : Vec Ideal S1x32 .f32) (o : Fin 32) :
    addf (matmul dot_S1x256_S256x32_S1x32_1_0_0_1_n_n none v (shapeCast S256x32 w shapeCasts_S256x32_S256x32 : FVec Ideal S256x32 .f32)
        (constant S1x32 .f32 0x00000000#32)) (shapeCast S1x32 bb shapeCasts_S1x32_S1x32 : FVec Ideal S1x32 .f32) (ix2 (0 : Fin 1) o)
      = (∑ c : Fin 256, v (ix2 (0 : Fin 1) c) * w (ix2 c o)) + bb (ix2 (0 : Fin 1) o) := by
  rw [addf_apply, shapeCast_self, shapeCast_self]
  exact congrArg (· + bb (ix2 (0 : Fin 1) o)) (PlainDot.matmul_apply_ix2 none v w (0 : Fin 1) o)

/-- The column sums of a `256 × 256` matrix, with the side conditions typed as they are printed. -/
theorem colsum (src : FVec Ideal S256x256 .f32) (hφ : FKind.Formats .f32)
    (hacc : (0x00000000#32 : BitVec 32) = 0x00000000#32) (c : Fin 256) :
    multiReduction .add [0] S256 src 0x00000000#32 reduces_S256x256_S256 hφ hacc (ix1 c) = ∑ r : Fin 256, src (ix2 r c) :=
  RowColumn.multiReduction_add_rows src _ _ hφ hacc c

/-- The mean down column `c`, kept as a row. -/
theorem colmean_apply (M : FVec Ideal S256x256 .f32) (hφ : FKind.Formats .f32)
    (hacc : (0x00000000#32 : BitVec 32) = 0x00000000#32) (c : Fin 256) :
    divf (shapeCast S1x256 (multiReduction .add [0] S256 M 0x00000000#32 reduces_S256x256_S256 hφ hacc) shapeCasts_S256_S1x256)
        (broadcast S1x256 (Scalar.ofBits .f32 0x43800000#32)) (ix2 (0 : Fin 1) c)
      = Ideal.div (∑ r : Fin 256, toM M r c) cC := by
  rw [divf_apply, shapeCast_a_1a_apply, colsum M hφ hacc c]
  rfl

/-- A matrix times the broadcast root of a `[1, 1]` value. -/
theorem scale_apply (Y : FVec Ideal S256x256 .f32) (tr : FVec Ideal S1x1 .f32) (r c : Fin 256) :
    toM (mulf Y (broadcastTo S256x256 (sqrt tr) broadcasts_S1x1_S256x256)) r c
      = toM Y r c * Ideal.sqrt (tr (ix2 (0 : Fin 1) (0 : Fin 1))) := by
  unfold toM
  rw [mulf_apply]
  refine congrArg (Y (ix2 r c) * ·) ?_
  refine (broadcastTo_apply _ _ _ (ix2 (0 : Fin 1) (0 : Fin 1)) fun a => ?_).trans rfl
  match a with
  | ⟨0, _⟩ => rfl
  | ⟨1, _⟩ => rfl

/-- From the second step on: three more full steps and the last half step, the rescaling by the root of the trace, the
    column means and the first dense layer. -/
theorem pay11_apply (E : FVec Ideal S256x256 .f32) (tr : FVec Ideal S1x1 .f32) (Y1 Z1 T1 : FVec Ideal S256x256 .f32)
    (w : Vec Ideal S256x32 .f32) (bb : Vec Ideal S1x32 .f32) (hE : toM E = eyeM)
    (hT : toM T1 = tstep (toM Z1) (toM Y1)) (o : Fin 32) :
    k0_pay11 E tr Y1 Z1 T1 (constant S256x256 .f32 0x00000000#32) w bb (ix2 (0 : Fin 1) o)
      = (∑ c : Fin 256, Soca.pool (fun i j => tailY (toM Y1, toM Z1) i j * Ideal.sqrt (tr (ix2 (0 : Fin 1) (0 : Fin 1)))) c
            * w (ix2 c o)) + bb (ix2 (0 : Fin 1) o) := by
  unfold k0_pay11
  dsimp only
  rw [dense1_apply]
  refine congrArg (· + bb (ix2 (0 : Fin 1) o)) (Finset.sum_congr rfl fun c _ => congrArg (· * w (ix2 c o)) ?_)
  rw [colmean_apply]
  unfold Soca.pool
  refine congrArg (Ideal.div · cC) (Finset.sum_congr rfl fun r _ => ?_)
  rw [scale_apply]
  refine congrArg (· * Ideal.sqrt (tr (ix2 (0 : Fin 1) (0 : Fin 1)))) ?_
  simp only [toM_mm, toM_tstep, hE, hT]
  rfl

/-- The rectified hidden row through the second dense layer and the logistic function, transposed to a column and
    multiplied onto the slab. -/
theorem pay1_apply (v1 : FVec Ideal S256x4096 .f32) (v78 : FVec Ideal S1x32 .f32) (v81 : Vec Ideal S32x256 .f32)
    (v84 : Vec Ideal S1x256 .f32) (c : Fin 256) (s : Fin 4096) :
    k0_pay1 v1 v78 v81 v84 (ix3 (0 : Fin 1) c s)
      = Ideal.logistic ((∑ o : Fin 32, max (v78 (ix2 (0 : Fin 1) o)) c0 * v81 (ix2 o c)) + v84 (ix2 (0 : Fin 1) c))
          * v1 (ix2 c s) := by
  unfold k0_pay1
  dsimp only
  rw [shapeCast_ab_1ab_apply, mulf_apply, Column.broadcastTo_a1_ab_apply, transpose_ix2_apply]
  refine congrArg (fun z => Ideal.logistic z * v1 (ix2 c s)) ?_
  rw [addf_apply, shapeCast_self, shapeCast_self]
  refine congrArg (· + v84 (ix2 (0 : Fin 1) c)) ?_
  exact PlainDot.matmul_apply_ix2 none _ v81 (0 : Fin 1) c

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block, entry by entry: the gate of the block's slab times the slab. -/
theorem out_apply (x0 : Vec Ideal S1x256x4096 .f32) (x1 : Vec Ideal S256x32 .f32) (x2 : Vec Ideal S1x32 .f32)
    (x3 : Vec Ideal S32x256 .f32) (x4 : Vec Ideal S1x256 .f32) (c : Fin 256) (s : Fin 4096) :
    out0_5 x0 x1 x2 x3 x4 (ix3 (0 : Fin 1) c s)
      = gateOf (X0 x0) (fun o c => x1 (ix2 c o)) (fun o => x2 (ix2 (0 : Fin 1) o)) (fun c o => x3 (ix2 o c))
          (fun c => x4 (ix2 (0 : Fin 1) c)) c * x0 (ix3 (0 : Fin 1) c s) := by
  unfold out0_5
  rw [View.canon_unit_zero hz3]
  simp only [View.ld_unit_zero (S := S1x256x4096) hz3, View.ld_unit_zero (S := S256x32) hz2,
    View.ld_unit_zero (S := S1x32) hz2, View.ld_unit_zero (S := S32x256) hz2, View.ld_unit_zero (S := S1x256) hz2]
  rw [pay1_apply]
  refine congrArg₂ (· * ·) ?_ (congrFun (congrFun (toM_pay2 x0) c) s)
  unfold gateOf Soca.gate Soca.hidden
  refine congrArg Ideal.logistic (congrArg (· + x4 (ix2 (0 : Fin 1) c)) (Finset.sum_congr rfl fun o _ =>
    congrArg (· * x3 (ix2 o c)) (congrArg (max · c0) ?_)))
  rw [pay11_apply _ _ _ _ _ _ _ toM_eye (toM_pay10 x0) o, pay89_step, pay5_apply]
  rfl

end Cert.KernelIdeal.KMath

end
-- ==== Proof.KG.lean ====
/-
  The kernel program's result array is the specification `Cert.Soca.G` of its five arguments: the grid writes batch `b`'s
  block from batch `b`'s slab of the flattened input, the weights arrive transposed and the biases as rows, and the
  body's block is the slab's gate times the slab.
-/
import proofs.«168882_j5222680232400_1_alg».proof.Proof.KernelTerm
import proofs.«168882_j5222680232400_1_alg».proof.Proof.KMath

noncomputable section

namespace Cert.KernelIdeal.KG

open Idealize.ShloMosaic Idealize.ShloMosaic.ValueIdx Cert.KernelIdeal Cert.KernelIdeal.Gen Cert.Soca
open Cert.KernelIdeal.KTerm Cert.KernelIdeal.KMath

/-- Batch `b`'s block of the flattened input, read as a matrix, is the specification's slab. -/
theorem X0_xblk (x : Vec Ideal S32x256x64x64 .f32) (b : Fin 32) : X0 (xblk (xflat x) b) = slab x b := by
  funext c s
  obtain ⟨h, w, rfl⟩ := exists_hw s
  unfold X0 slab
  rw [xblk_xflat_apply]
  refine congrArg x ?_
  have e1 : (⟨(hw h w).val / 64, by have := (hw h w).isLt; omega⟩ : Fin 64) = h :=
    Fin.ext (by show (64 * h.val + w.val) / 64 = h.val; have := w.isLt; omega)
  have e2 : (⟨(hw h w).val % 64, Nat.mod_lt _ (by decide)⟩ : Fin 64) = w :=
    Fin.ext (by show (64 * h.val + w.val) % 64 = w.val; have := w.isLt; omega)
  rw [e1, e2]

/-- The kernel program's result is `G` of its arguments. -/
theorem out_eq_G (x : Vec Ideal S32x256x64x64 .f32) (w1 : Vec Ideal S32x256 .f32) (b1 : Vec Ideal S32 .f32)
    (w2 : Vec Ideal S256x32 .f32) (b2 : Vec Ideal S256 .f32) :
    KTerm.out x w1 b1 w2 b2 = G x w1 b1 w2 b2 := by
  funext j
  obtain ⟨b, c, h, w, rfl⟩ : ∃ (b : Fin 32) (c : Fin 256) (h w : Fin 64), j = ix4 b c h w := ⟨j 0, j 1, j 2, j 3, eq_ix4 j⟩
  rw [KTerm.out_apply, KMath.out_apply, X0_xblk, xblk_xflat_apply]
  unfold G
  refine congrArg (· * x (ix4 b c h w)) ?_
  have hW1 : (fun (o : Fin 32) (c : Fin 256) => w1t w1 (ix2 c o)) = fun o c => w1 (ix2 o c) :=
    funext fun o => funext fun c => w1t_apply w1 c o
  have hB1 : (fun (o : Fin 32) => b1r b1 (ix2 (0 : Fin 1) o)) = fun o => b1 (ix1 o) :=
    funext fun o => b1r_apply b1 0 o
  have hW2 : (fun (c : Fin 256) (o : Fin 32) => w2t w2 (ix2 o c)) = fun c o => w2 (ix2 c o) :=
    funext fun c => funext fun o => w2t_apply w2 o c
  have hB2 : (fun (c : Fin 256) => b2r b2 (ix2 (0 : Fin 1) c)) = fun c => b2 (ix1 c) :=
    funext fun c => b2r_apply b2 0 c
  rw [hW1, hB1, hW2, hB2]

end Cert.KernelIdeal.KG

end
-- ==== Proof.RefTerm.lean ====
import proofs.«168882_j5222680232400_1_alg».proof.Proof.Gen.ReferenceIdeal

/-!
# The reference's result as a composition of stages

Each definition below is spelt with exactly the pure functions that the reference's host operations apply,
over the same shape records and side conditions and in the same argument order, so that the contents of a
buffer after the operations have run is the corresponding stage applied to the argument contents.

The reference computes, per batch b of x : f32[32,256,64,64] read as a [256,4096] slab: the covariance of
the channels (cov), its trace (tr), the trace-normalised covariance (divTr), five coupled Newton–Schulz
steps towards its square root (tstep, mm), the rescaling by the square root of the trace (scale), the
column mean (colMean), a two-layer gate with a rectifier and a logistic (gate), and the product of the gate
with x (applyGate).
-/

noncomputable section

namespace Cert.ReferenceIdeal.RefTerm

open Cert.ReferenceIdeal Cert.ReferenceIdeal.Gen Idealize.ShloMosaic Idealize.SL.Sem

variable {F : FTy → Type} [FloatOps F]

/-- The contents of an f32 tensor of shape S. -/
local notation "T[" S "]" => BufTy.Contents (Elt F) (BufTy.mk S EltTy.f32)

/-- The zero scalar. -/
def zero : T[S_] := constant S_ .f32 0x00000000#32

/-- The diagonal mask of a 256×256 matrix: row index (plus zero) equal to column index. -/
def mask : BufTy.Contents (Elt F) (BufTy.mk S256x256 EltTy.i1) :=
  cmpi .eq (addi (iotaInDim S256x256 32 0) (broadcastInDim S256x256 ![] bcast_S_S256x256 (constantI S_ 32 0#32)))
    (iotaInDim S256x256 32 1)

/-- The 256×256 identity matrix: the diagonal mask as floats. -/
def eye : T[S256x256] := uitofp .f32 (mask (F := F))

/-- x with its two spatial axes flattened: one [256,4096] slab per batch. -/
def flat (x : T[S32x256x64x64]) : T[S32x256x4096] :=
  shapeCast S32x256x4096 x shapeCasts_S32x256x64x64_S32x256x4096

/-- Each row minus its mean over the 4096 positions. -/
def center (v : T[S32x256x4096]) : T[S32x256x4096] :=
  subf v (broadcastInDim S32x256x4096 ![0, 1, 2] bcast_S32x256x1_S32x256x4096_0_1_2
    (Host.divf
      (broadcastInDim S32x256x1 ![0, 1] bcast_S32x256_S32x256x1_0_1
        (Host.reduceAdd v (zero (F := F)) reducesTo_S32x256x4096_S32x256_d2 h_S_))
      (broadcastInDim S32x256x1 ![] bcast_S_S32x256x1 (constant S_ .f32 0x45800000#32))))

/-- The Gram matrix of the rows, contracted over the positions. -/
def gram (v : T[S32x256x4096]) : T[S32x256x256] :=
  Host.dotGeneral dot_S32x256x4096_S32x256x4096_S32x256x256_2_2_1_1_0_0 none v v

/-- The covariance of the 256 channels over the 4096 positions, per batch. -/
def cov (x : T[S32x256x64x64]) : T[S32x256x256] :=
  Host.divf (gram (center (flat x)))
    (broadcastInDim S32x256x256 ![] bcast_S_S32x256x256 (constant S_ .f32 0x45800000#32))

/-- The trace of each batch's matrix, as a [32,1,1] tensor: the sum over both matrix axes of the matrix
    with its off-diagonal entries replaced by zero. -/
def tr (A : T[S32x256x256]) : T[S32x1x1] :=
  broadcastInDim S32x1x1 ![0] bcast_S32_S32x1x1_0
    (Host.reduceAdd
      (select (broadcastInDim S32x256x256 ![1, 2] bcast_S256x256_S32x256x256_1_2 (mask (F := F))) A
        (broadcastInDim S32x256x256 ![] bcast_S_S32x256x256 (zero (F := F))))
      (zero (F := F)) reducesTo_S32x256x256_S32_d1_2 h_S_)

/-- Each batch's matrix divided by that batch's scalar. -/
def divTr (A : T[S32x256x256]) (t : T[S32x1x1]) : T[S32x256x256] :=
  Host.divf A (broadcastInDim S32x256x256 ![0, 1, 2] bcast_S32x1x1_S32x256x256_0_1_2 t)

/-- The identity matrix in every batch. -/
def eyeB : T[S32x256x256] :=
  broadcastInDim S32x256x256 ![1, 2] bcast_S256x256_S32x256x256_1_2 (eye (F := F))

/-- The batched matrix product L · R. -/
def mm (L R : T[S32x256x256]) : T[S32x256x256] :=
  Host.dotGeneral dot_S32x256x256_S32x256x256_S32x256x256_2_1_1_2_0_0 none L R

/-- Three times the identity matrix. -/
def threeEye : T[S256x256] :=
  mulf (broadcastInDim S256x256 ![] bcast_S_S256x256 (constant S_ .f32 0x40400000#32)) (eye (F := F))

/-- Three times the identity matrix in every batch. -/
def threeEyeB : T[S32x256x256] :=
  broadcastInDim S32x256x256 ![0, 1, 2] bcast_S1x256x256_S32x256x256_0_1_2
    (broadcastInDim S1x256x256 ![1, 2] bcast_S256x256_S1x256x256_1_2 (threeEye (F := F)))

/-- The Newton–Schulz correction ½ (3 I − Z · Y). -/
def tstep (Z Y : T[S32x256x256]) : T[S32x256x256] :=
  mulf (broadcastInDim S32x256x256 ![] bcast_S_S32x256x256 (constant S_ .f32 0x3F000000#32))
    (subf (threeEyeB (F := F)) (mm Z Y))

/-- Each batch's matrix times the square root of that batch's scalar. -/
def scale (Y : T[S32x256x256]) (t : T[S32x1x1]) : T[S32x256x256] :=
  mulf Y (broadcastInDim S32x256x256 ![0, 1, 2] bcast_S32x1x1_S32x256x256_0_1_2 (Host.sqrt t))

/-- The mean of each column over the 256 rows. -/
def colMean (M : T[S32x256x256]) : T[S32x256] :=
  Host.divf (Host.reduceAdd M (zero (F := F)) reducesTo_S32x256x256_S32x256_d1 h_S_)
    (broadcastInDim S32x256 ![] bcast_S_S32x256 (constant S_ .f32 0x43800000#32))

/-- The first dense layer: v · w1ᵀ + b1. -/
def dense1 (v : T[S32x256]) (w1 : T[S32x256]) (b1 : T[S32]) : T[S32x32] :=
  addf (Host.dotGeneral dot_S32x256_S32x256_S32x32_1_1_0_0_n_n none v w1)
    (broadcastInDim S32x32 ![0, 1] bcast_S1x32_S32x32_0_1 (broadcastInDim S1x32 ![1] bcast_S32_S1x32_1 b1))

/-- The rectifier: the maximum with zero. -/
def relu (h : T[S32x32]) : T[S32x32] :=
  maximumf h (broadcastInDim S32x32 ![] bcast_S_S32x32 (zero (F := F)))

/-- The second dense layer: h · w2ᵀ + b2. -/
def dense2 (h : T[S32x32]) (w2 : T[S256x32]) (b2 : T[S256]) : T[S32x256] :=
  addf (Host.dotGeneral dot_S32x32_S256x32_S32x256_1_1_0_0_n_n none h w2)
    (broadcastInDim S32x256 ![0, 1] bcast_S1x256_S32x256_0_1 (broadcastInDim S1x256 ![1] bcast_S256_S1x256_1 b2))

/-- The all-ones [32,256] tensor. -/
def ones : T[S32x256] := broadcastInDim S32x256 ![] bcast_S_S32x256 (constant S_ .f32 0x3F800000#32)

/-- The logistic function 1 / (1 + exp (−z)). -/
def sigmoid (z : T[S32x256]) : T[S32x256] :=
  Host.divf (ones (F := F)) (addf (ones (F := F)) (Host.exp (Host.negf z)))

/-- The channel gate: two dense layers, a rectifier between them, a logistic after them. -/
def gate (v : T[S32x256]) (w1 : T[S32x256]) (b1 : T[S32]) (w2 : T[S256x32]) (b2 : T[S256]) : T[S32x256] :=
  sigmoid (dense2 (relu (dense1 v w1 b1)) w2 b2)

/-- The gate of channel c of batch b times every entry of that channel of x. -/
def applyGate (a : T[S32x256]) (x : T[S32x256x64x64]) : T[S32x256x64x64] :=
  mulf (broadcastInDim S32x256x64x64 ![0, 1, 2, 3] bcast_S32x256x1x1_S32x256x64x64_0_1_2_3
    (broadcastInDim S32x256x1x1 ![0, 1] bcast_S32x256_S32x256x1x1_0_1 a)) x

/-- The reference's result: with A the covariance, t its trace, Y₀ = A / t, Z₀ = I, five steps
    Tₖ = ½ (3 I − Zₖ Yₖ), Yₖ₊₁ = Yₖ Tₖ, Zₖ₊₁ = Tₖ Zₖ (the last step computes Y₅ only); the gate is read off
    the column mean of Y₅ · √t. -/
def out (x : T[S32x256x64x64]) (w1 : T[S32x256]) (b1 : T[S32]) (w2 : T[S256x32]) (b2 : T[S256]) :
    T[S32x256x64x64] :=
  let A : T[S32x256x256] := cov x
  let t : T[S32x1x1] := tr A
  let Y0 : T[S32x256x256] := divTr A t
  let Z0 : T[S32x256x256] := eyeB
  let T0 : T[S32x256x256] := tstep Z0 Y0
  let Y1 : T[S32x256x256] := mm Y0 T0
  let Z1 : T[S32x256x256] := mm T0 Z0
  let T1 : T[S32x256x256] := tstep Z1 Y1
  let Y2 : T[S32x256x256] := mm Y1 T1
  let Z2 : T[S32x256x256] := mm T1 Z1
  let T2 : T[S32x256x256] := tstep Z2 Y2
  let Y3 : T[S32x256x256] := mm Y2 T2
  let Z3 : T[S32x256x256] := mm T2 Z2
  let T3 : T[S32x256x256] := tstep Z3 Y3
  let Y4 : T[S32x256x256] := mm Y3 T3
  let Z4 : T[S32x256x256] := mm T3 Z3
  let T4 : T[S32x256x256] := tstep Z4 Y4
  let Y5 : T[S32x256x256] := mm Y4 T4
  applyGate (gate (colMean (scale Y5 t)) w1 b1 w2 b2) x

end Cert.ReferenceIdeal.RefTerm

end
-- ==== Proof.RefRun.lean ====
import proofs.«168882_j5222680232400_1_alg».proof.Proof.RefTerm
import Idealize.ShloMosaic.Lib.StableHlo.Run

/-!
# The reference's run

The reference's @main is a straight line of 125 host operations once the three module-local functions it
calls (the trace, the select inside it, the rectifier) are unfolded at their call sites. This module lists
them in order, proves @main equal to that line, and reads the run back: every weakly fair execution terminates
with the result buffer at the composition of stages RefTerm.out of the argument contents, the arguments
unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 125 operations in order, the calls unfolded: the trace's twelve (its own diagonal mask, the zero
    matrix, the select's two, the sum) into the buffers of the first call record, the rectifier's three into
    the second's. -/
abbrev ops : List (HloOp τ sig (Elt F)) :=
  [ StableHlo.reshape main_arg0 main_v0 rfl shapeCasts_S32x256x64x64_S32x256x4096,
    StableHlo.nullary main_cst (constant S_ .f32 0x00000000#32),
    StableHlo.binary main_v0 main_cst main_v1 ((fun x v => Host.reduceAdd x v reducesTo_S32x256x4096_S32x256_d2 h_S_) : (⟨S32x256x4096, .f32⟩ : BufTy).Contents (Elt F) → (⟨S_, .f32⟩ : BufTy).Contents (Elt F) → (⟨S32x256, .f32⟩ : BufTy).Contents (Elt F)),
    StableHlo.unary main_v1 main_v2 (broadcastInDim S32x256x1 ![0, 1] bcast_S32x256_S32x256x1_0_1 : (⟨S32x256, .f32⟩ : BufTy).Contents (Elt F) → (⟨S32x256x1, .f32⟩ : BufTy).Contents (Elt F)),
    StableHlo.nullary main_cst_0 (constant S_ .f32 0x45800000#32),
    StableHlo.unary main_cst_0 main_v3 (broadcastInDim S32x256x1 ![] bcast_S_S32x256x1 : (⟨S_, .f32⟩ : BufTy).Contents (Elt F) → (⟨S32x256x1, .f32⟩ : BufTy).Contents (Elt F)),
    StableHlo.binary main_v2 main_v3 main_v4 (Host.divf : (⟨S32x256x1, .f32⟩ : BufTy).Contents (Elt F) → (⟨S32x256x1, .f32⟩ : BufTy).Contents (Elt F) → (⟨S32x256x1, .f32⟩ : BufTy).Contents (Elt F)),
    StableHlo.unary main_v4 main_v5 (broadcastInDim S32x256x4096 ![0, 1, 2] bcast_S32x256x1_S32x256x4096_0_1_2 : (⟨S32x256x1, .f32⟩ : BufTy).Contents (Elt F) → (⟨S32x256x4096, .f32⟩ : BufTy).Contents (Elt F)),
    StableHlo.binary main_v0 main_v5 main_v6 (subf : (⟨S32x256x4096, .f32⟩ : BufTy).Contents (Elt F) → (⟨S32x256x4096, .f32⟩ : BufTy).Contents (Elt F) → (⟨S32x256x4096, .f32⟩ : BufTy).Contents (Elt F)),
    StableHlo.binary main_v6 main_v6 main_v7 ((fun l r => Host.dotGeneral dot_S32x256x4096_S32x256x4096_S32x256x256_2_2_1_1_0_0 none l r) : (⟨S32x256x4096, .f32⟩ : BufTy).Contents (Elt F) → (⟨S32x256x4096, .f32⟩ : BufTy).Contents (Elt F) → (⟨S32x256x256, .f32⟩ : BufTy).Contents (Elt F)),
    StableHlo.nullary main_cst_1 (constant S_ .f32 0x45800000#32),
    StableHlo.unary main_cst_1 main_v8 (broadcastInDim S32x256x256 ![] bcast_S_S32x256x256 : (⟨S_, .f32⟩ : BufTy).Contents (Elt F) → (⟨S32x256x256, .f32⟩ : BufTy).Contents (Elt F)),
    StableHlo.binary main_v7 main_v8 main_v9 (Host.divf : (⟨S32x256x256, .f32⟩ : BufTy).Contents (Elt F) → (⟨S32x256x256, .f32⟩ : BufTy).Contents (Elt F) → (⟨S32x256x256, .f32⟩ : BufTy).Contents (Elt F)),
    StableHlo.nullary main_v10 (iotaInDim S256x256 32 0),
    StableHlo.nullary main_v11 (iotaInDim S256x256 32 1),
    StableHlo.nullary main_c (constantI S_ 32 0#32),
    StableHlo.unary main_c main_v12 (broadcastInDim S256x256 ![] bcast_S_S256x256 : (⟨S_, .i32⟩ : BufTy).Contents (Elt F) → (⟨S256x256, .i32⟩ : BufTy).Contents (Elt F)),
    StableHlo.binary main_v10 main_v12 main_v13 (addi : (⟨S256x256, .i32⟩ : BufTy).Contents (Elt F) → (⟨S256x256, .i32⟩ : BufTy).Contents (Elt F) → (⟨S256x256, .i32⟩ : BufTy).Contents (Elt F)),
    StableHlo.binary main_v13 main_v11 main_v14 (cmpi .eq : (⟨S256x256, .i32⟩ : BufTy).Contents (Elt F) → (⟨S256x256, .i32⟩ : BufTy).Contents (Elt F) → (⟨S256x256, .i1⟩ : BufTy).Contents (Elt F)),
    StableHlo.unary main_v14 main_v15 (uitofp .f32 : (⟨S256x256, .i1⟩ : BufTy).Contents (Elt F) → (⟨S256x256, .f32⟩ : BufTy).Contents (Elt F)),
    StableHlo.TRef.nullary main_call0.v0 (iotaInDim S256x256 32 0),
    StableHlo.TRef.nullary main_call0.v1 (iotaInDim S256x256 32 1),
    StableHlo.TRef.nullary main_call0.c (constantI S_ 32 0#32),
    StableHlo.TRef.unary main_call0.c main_call0.v2 (broadcastInDim S256x256 ![] bcast_S_S256x256),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S32x256x256 ![] bcast_S_S32x256x256),
    StableHlo.TRef.unary main_call0.v4 main_call0.call0.v0 (broadcastInDim S32x256x256 ![1, 2] bcast_S256x256_S32x256x256_1_2),
    StableHlo.TRef.ternary main_call0.call0.v0 (.of main_v9) main_call0.v5 main_call0.call0.v1 select,
    StableHlo.TRef.nullary main_call0.cst_0 (constant S_ .f32 0x00000000#32),
    StableHlo.TRef.binary main_call0.call0.v1 main_call0.cst_0 main_call0.v7 (fun x v => Host.reduceAdd x v reducesTo_S32x256x256_S32_d1_2 h_S_),
    StableHlo.unary main_v16 main_v17 (broadcastInDim S32x1x1 ![0] bcast_S32_S32x1x1_0 : (⟨S32, .f32⟩ : BufTy).Contents (Elt F) → (⟨S32x1x1, .f32⟩ : BufTy).Contents (Elt F)),
    StableHlo.unary main_v17 main_v18 (broadcastInDim S32x256x256 ![0, 1, 2] bcast_S32x1x1_S32x256x256_0_1_2 : (⟨S32x1x1, .f32⟩ : BufTy).Contents (Elt F) → (⟨S32x256x256, .f32⟩ : BufTy).Contents (Elt F)),
    StableHlo.binary main_v9 main_v18 main_v19 (Host.divf : (⟨S32x256x256, .f32⟩ : BufTy).Contents (Elt F) → (⟨S32x256x256, .f32⟩ : BufTy).Contents (Elt F) → (⟨S32x256x256, .f32⟩ : BufTy).Contents (Elt F)),
    StableHlo.unary main_v15 main_v20 (broadcastInDim S32x256x256 ![1, 2] bcast_S256x256_S32x256x256_1_2 : (⟨S256x256, .f32⟩ : BufTy).Contents (Elt F) → (⟨S32x256x256, .f32⟩ : BufTy).Contents (Elt F)),
    StableHlo.nullary main_cst_2 (constant S_ .f32 0x40400000#32),
    StableHlo.unary main_cst_2 main_v21 (broadcastInDim S256x256 ![] bcast_S_S256x256 : (⟨S_, .f32⟩ : BufTy).Contents (Elt F) → (⟨S256x256, .f32⟩ : BufTy).Contents (Elt F)),
    StableHlo.binary main_v21 main_v15 main_v22 (mulf : (⟨S256x256, .f32⟩ : BufTy).Contents (Elt F) → (⟨S256x256, .f32⟩ : BufTy).Contents (Elt F) → (⟨S256x256, .f32⟩ : BufTy).Contents (Elt F)),
    StableHlo.binary main_v20 main_v19 main_v23 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.unary main_v22 main_v24 (broadcastInDim S1x256x256 ![1, 2] bcast_S256x256_S1x256x256_1_2 : (⟨S256x256, .f32⟩ : BufTy).Contents (Elt F) → (⟨S1x256x256, .f32⟩ : BufTy).Contents (Elt F)),
    StableHlo.unary main_v24 main_v25 (broadcastInDim S32x256x256 ![0, 1, 2] bcast_S1x256x256_S32x256x256_0_1_2 : (⟨S1x256x256, .f32⟩ : BufTy).Contents (Elt F) → (⟨S32x256x256, .f32⟩ : BufTy).Contents (Elt F)),
    StableHlo.binary main_v25 main_v23 main_v26 (subf : (⟨S32x256x256, .f32⟩ : BufTy).Contents (Elt F) → (⟨S32x256x256, .f32⟩ : BufTy).Contents (Elt F) → (⟨S32x256x256, .f32⟩ : BufTy).Contents (Elt F)),
    StableHlo.nullary main_cst_3 (constant S_ .f32 0x3F000000#32),
    StableHlo.unary main_cst_3 main_v27 (broadcastInDim S32x256x256 ![] bcast_S_S32x256x256 : (⟨S_, .f32⟩ : BufTy).Contents (Elt F) → (⟨S32x256x256, .f32⟩ : BufTy).Contents (Elt F)),
    StableHlo.binary main_v27 main_v26 main_v28 (mulf : (⟨S32x256x256, .f32⟩ : BufTy).Contents (Elt F) → (⟨S32x256x256, .f32⟩ : BufTy).Contents (Elt F) → (⟨S32x256x256, .f32⟩ : BufTy).Contents (Elt F)),
    StableHlo.binary main_v19 main_v28 main_v29 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.binary main_v28 main_v20 main_v30 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.nullary main_cst_4 (constant S_ .f32 0x40400000#32),
    StableHlo.unary main_cst_4 main_v31 (broadcastInDim S256x256 ![] bcast_S_S256x256 : (⟨S_, .f32⟩ : BufTy).Contents (Elt F) → (⟨S256x256, .f32⟩ : BufTy).Contents (Elt F)),
    StableHlo.binary main_v31 main_v15 main_v32 (mulf : (⟨S256x256, .f32⟩ : BufTy).Contents (Elt F) → (⟨S256x256, .f32⟩ : BufTy).Contents (Elt F) → (⟨S256x256, .f32⟩ : BufTy).Contents (Elt F)),
    StableHlo.binary main_v30 main_v29 main_v33 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.unary main_v32 main_v34 (broadcastInDim S1x256x256 ![1, 2] bcast_S256x256_S1x256x256_1_2 : (⟨S256x256, .f32⟩ : BufTy).Contents (Elt F) → (⟨S1x256x256, .f32⟩ : BufTy).Contents (Elt F)),
    StableHlo.unary main_v34 main_v35 (broadcastInDim S32x256x256 ![0, 1, 2] bcast_S1x256x256_S32x256x256_0_1_2 : (⟨S1x256x256, .f32⟩ : BufTy).Contents (Elt F) → (⟨S32x256x256, .f32⟩ : BufTy).Contents (Elt F)),
    StableHlo.binary main_v35 main_v33 main_v36 (subf : (⟨S32x256x256, .f32⟩ : BufTy).Contents (Elt F) → (⟨S32x256x256, .f32⟩ : BufTy).Contents (Elt F) → (⟨S32x256x256, .f32⟩ : BufTy).Contents (Elt F)),
    StableHlo.nullary main_cst_5 (constant S_ .f32 0x3F000000#32),
    StableHlo.unary main_cst_5 main_v37 (broadcastInDim S32x256x256 ![] bcast_S_S32x256x256 : (⟨S_, .f32⟩ : BufTy).Contents (Elt F) → (⟨S32x256x256, .f32⟩ : BufTy).Contents (Elt F)),
    StableHlo.binary main_v37 main_v36 main_v38 (mulf : (⟨S32x256x256, .f32⟩ : BufTy).Contents (Elt F) → (⟨S32x256x256, .f32⟩ : BufTy).Contents (Elt F) → (⟨S32x256x256, .f32⟩ : BufTy).Contents (Elt F)),
    StableHlo.binary main_v29 main_v38 main_v39 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.binary main_v38 main_v30 main_v40 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.nullary main_cst_6 (constant S_ .f32 0x40400000#32),
    StableHlo.unary main_cst_6 main_v41 (broadcastInDim S256x256 ![] bcast_S_S256x256 : (⟨S_, .f32⟩ : BufTy).Contents (Elt F) → (⟨S256x256, .f32⟩ : BufTy).Contents (Elt F)),
    StableHlo.binary main_v41 main_v15 main_v42 (mulf : (⟨S256x256, .f32⟩ : BufTy).Contents (Elt F) → (⟨S256x256, .f32⟩ : BufTy).Contents (Elt F) → (⟨S256x256, .f32⟩ : BufTy).Contents (Elt F)),
    StableHlo.binary main_v40 main_v39 main_v43 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.unary main_v42 main_v44 (broadcastInDim S1x256x256 ![1, 2] bcast_S256x256_S1x256x256_1_2 : (⟨S256x256, .f32⟩ : BufTy).Contents (Elt F) → (⟨S1x256x256, .f32⟩ : BufTy).Contents (Elt F)),
    StableHlo.unary main_v44 main_v45 (broadcastInDim S32x256x256 ![0, 1, 2] bcast_S1x256x256_S32x256x256_0_1_2 : (⟨S1x256x256, .f32⟩ : BufTy).Contents (Elt F) → (⟨S32x256x256, .f32⟩ : BufTy).Contents (Elt F)),
    StableHlo.binary main_v45 main_v43 main_v46 (subf : (⟨S32x256x256, .f32⟩ : BufTy).Contents (Elt F) → (⟨S32x256x256, .f32⟩ : BufTy).Contents (Elt F) → (⟨S32x256x256, .f32⟩ : BufTy).Contents (Elt F)),
    StableHlo.nullary main_cst_7 (constant S_ .f32 0x3F000000#32),
    StableHlo.unary main_cst_7 main_v47 (broadcastInDim S32x256x256 ![] bcast_S_S32x256x256 : (⟨S_, .f32⟩ : BufTy).Contents (Elt F) → (⟨S32x256x256, .f32⟩ : BufTy).Contents (Elt F)),
    StableHlo.binary main_v47 main_v46 main_v48 (mulf : (⟨S32x256x256, .f32⟩ : BufTy).Contents (Elt F) → (⟨S32x256x256, .f32⟩ : BufTy).Contents (Elt F) → (⟨S32x256x256, .f32⟩ : BufTy).Contents (Elt F)),
    StableHlo.binary main_v39 main_v48 main_v49 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.binary main_v48 main_v40 main_v50 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.nullary main_cst_8 (constant S_ .f32 0x40400000#32),
    StableHlo.unary main_cst_8 main_v51 (broadcastInDim S256x256 ![] bcast_S_S256x256 : (⟨S_, .f32⟩ : BufTy).Contents (Elt F) → (⟨S256x256, .f32⟩ : BufTy).Contents (Elt F)),
    StableHlo.binary main_v51 main_v15 main_v52 (mulf : (⟨S256x256, .f32⟩ : BufTy).Contents (Elt F) → (⟨S256x256, .f32⟩ : BufTy).Contents (Elt F) → (⟨S256x256, .f32⟩ : BufTy).Contents (Elt F)),
    StableHlo.binary main_v50 main_v49 main_v53 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.unary main_v52 main_v54 (broadcastInDim S1x256x256 ![1, 2] bcast_S256x256_S1x256x256_1_2 : (⟨S256x256, .f32⟩ : BufTy).Contents (Elt F) → (⟨S1x256x256, .f32⟩ : BufTy).Contents (Elt F)),
    StableHlo.unary main_v54 main_v55 (broadcastInDim S32x256x256 ![0, 1, 2] bcast_S1x256x256_S32x256x256_0_1_2 : (⟨S1x256x256, .f32⟩ : BufTy).Contents (Elt F) → (⟨S32x256x256, .f32⟩ : BufTy).Contents (Elt F)),
    StableHlo.binary main_v55 main_v53 main_v56 (subf : (⟨S32x256x256, .f32⟩ : BufTy).Contents (Elt F) → (⟨S32x256x256, .f32⟩ : BufTy).Contents (Elt F) → (⟨S32x256x256, .f32⟩ : BufTy).Contents (Elt F)),
    StableHlo.nullary main_cst_9 (constant S_ .f32 0x3F000000#32),
    StableHlo.unary main_cst_9 main_v57 (broadcastInDim S32x256x256 ![] bcast_S_S32x256x256 : (⟨S_, .f32⟩ : BufTy).Contents (Elt F) → (⟨S32x256x256, .f32⟩ : BufTy).Contents (Elt F)),
    StableHlo.binary main_v57 main_v56 main_v58 (mulf : (⟨S32x256x256, .f32⟩ : BufTy).Contents (Elt F) → (⟨S32x256x256, .f32⟩ : BufTy).Contents (Elt F) → (⟨S32x256x256, .f32⟩ : BufTy).Contents (Elt F)),
    StableHlo.binary main_v49 main_v58 main_v59 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.binary main_v58 main_v50 main_v60 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.nullary main_cst_10 (constant S_ .f32 0x40400000#32),
    StableHlo.unary main_cst_10 main_v61 (broadcastInDim S256x256 ![] bcast_S_S256x256 : (⟨S_, .f32⟩ : BufTy).Contents (Elt F) → (⟨S256x256, .f32⟩ : BufTy).Contents (Elt F)),
    StableHlo.binary main_v61 main_v15 main_v62 (mulf : (⟨S256x256, .f32⟩ : BufTy).Contents (Elt F) → (⟨S256x256, .f32⟩ : BufTy).Contents (Elt F) → (⟨S256x256, .f32⟩ : BufTy).Contents (Elt F)),
    StableHlo.binary main_v60 main_v59 main_v63 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.unary main_v62 main_v64 (broadcastInDim S1x256x256 ![1, 2] bcast_S256x256_S1x256x256_1_2 : (⟨S256x256, .f32⟩ : BufTy).Contents (Elt F) → (⟨S1x256x256, .f32⟩ : BufTy).Contents (Elt F)),
    StableHlo.unary main_v64 main_v65 (broadcastInDim S32x256x256 ![0, 1, 2] bcast_S1x256x256_S32x256x256_0_1_2 : (⟨S1x256x256, .f32⟩ : BufTy).Contents (Elt F) → (⟨S32x256x256, .f32⟩ : BufTy).Contents (Elt F)),
    StableHlo.binary main_v65 main_v63 main_v66 (subf : (⟨S32x256x256, .f32⟩ : BufTy).Contents (Elt F) → (⟨S32x256x256, .f32⟩ : BufTy).Contents (Elt F) → (⟨S32x256x256, .f32⟩ : BufTy).Contents (Elt F)),
    StableHlo.nullary main_cst_11 (constant S_ .f32 0x3F000000#32),
    StableHlo.unary main_cst_11 main_v67 (broadcastInDim S32x256x256 ![] bcast_S_S32x256x256 : (⟨S_, .f32⟩ : BufTy).Contents (Elt F) → (⟨S32x256x256, .f32⟩ : BufTy).Contents (Elt F)),
    StableHlo.binary main_v67 main_v66 main_v68 (mulf : (⟨S32x256x256, .f32⟩ : BufTy).Contents (Elt F) → (⟨S32x256x256, .f32⟩ : BufTy).Contents (Elt F) → (⟨S32x256x256, .f32⟩ : BufTy).Contents (Elt F)),
    StableHlo.binary main_v59 main_v68 main_v69 ((fun l r => Host.dotGeneral dot_S32x256x256_S32x256x256_S32x256x256_2_1_1_2_0_0 none l r) : (⟨S32x256x256, .f32⟩ : BufTy).Contents (Elt F) → (⟨S32x256x256, .f32⟩ : BufTy).Contents (Elt F) → (⟨S32x256x256, .f32⟩ : BufTy).Contents (Elt F)),
    StableHlo.unary main_v17 main_v70 (Host.sqrt : (⟨S32x1x1, .f32⟩ : BufTy).Contents (Elt F) → (⟨S32x1x1, .f32⟩ : BufTy).Contents (Elt F)),
    StableHlo.unary main_v70 main_v71 (broadcastInDim S32x256x256 ![0, 1, 2] bcast_S32x1x1_S32x256x256_0_1_2 : (⟨S32x1x1, .f32⟩ : BufTy).Contents (Elt F) → (⟨S32x256x256, .f32⟩ : BufTy).Contents (Elt F)),
    StableHlo.binary main_v69 main_v71 main_v72 (mulf : (⟨S32x256x256, .f32⟩ : BufTy).Contents (Elt F) → (⟨S32x256x256, .f32⟩ : BufTy).Contents (Elt F) → (⟨S32x256x256, .f32⟩ : BufTy).Contents (Elt F)),
    StableHlo.nullary main_cst_12 (constant S_ .f32 0x00000000#32),
    StableHlo.binary main_v72 main_cst_12 main_v73 ((fun x v => Host.reduceAdd x v reducesTo_S32x256x256_S32x256_d1 h_S_) : (⟨S32x256x256, .f32⟩ : BufTy).Contents (Elt F) → (⟨S_, .f32⟩ : BufTy).Contents (Elt F) → (⟨S32x256, .f32⟩ : BufTy).Contents (Elt F)),
    StableHlo.nullary main_cst_13 (constant S_ .f32 0x43800000#32),
    StableHlo.unary main_cst_13 main_v74 (broadcastInDim S32x256 ![] bcast_S_S32x256 : (⟨S_, .f32⟩ : BufTy).Contents (Elt F) → (⟨S32x256, .f32⟩ : BufTy).Contents (Elt F)),
    StableHlo.binary main_v73 main_v74 main_v75 (Host.divf : (⟨S32x256, .f32⟩ : BufTy).Contents (Elt F) → (⟨S32x256, .f32⟩ : BufTy).Contents (Elt F) → (⟨S32x256, .f32⟩ : BufTy).Contents (Elt F)),
    StableHlo.binary main_v75 main_arg1 main_v76 ((fun l r => Host.dotGeneral dot_S32x256_S32x256_S32x32_1_1_0_0_n_n none l r) : (⟨S32x256, .f32⟩ : BufTy).Contents (Elt F) → (⟨S32x256, .f32⟩ : BufTy).Contents (Elt F) → (⟨S32x32, .f32⟩ : BufTy).Contents (Elt F)),
    StableHlo.unary main_arg2 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S32x32 ![0, 1] bcast_S1x32_S32x32_0_1 : (⟨S1x32, .f32⟩ : BufTy).Contents (Elt F) → (⟨S32x32, .f32⟩ : BufTy).Contents (Elt F)),
    StableHlo.binary main_v76 main_v78 main_v79 (addf : (⟨S32x32, .f32⟩ : BufTy).Contents (Elt F) → (⟨S32x32, .f32⟩ : BufTy).Contents (Elt F) → (⟨S32x32, .f32⟩ : BufTy).Contents (Elt F)),
    StableHlo.TRef.nullary main_call1.cst (constant S_ .f32 0x00000000#32),
    StableHlo.TRef.unary main_call1.cst main_call1.v0 (broadcastInDim S32x32 ![] bcast_S_S32x32),
    StableHlo.TRef.binary (.of main_v79) main_call1.v0 main_call1.v1 maximumf,
    StableHlo.binary main_v80 main_arg3 main_v81 ((fun l r => Host.dotGeneral dot_S32x32_S256x32_S32x256_1_1_0_0_n_n none l r) : (⟨S32x32, .f32⟩ : BufTy).Contents (Elt F) → (⟨S256x32, .f32⟩ : BufTy).Contents (Elt F) → (⟨S32x256, .f32⟩ : BufTy).Contents (Elt F)),
    StableHlo.unary main_arg4 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S32x256 ![0, 1] bcast_S1x256_S32x256_0_1 : (⟨S1x256, .f32⟩ : BufTy).Contents (Elt F) → (⟨S32x256, .f32⟩ : BufTy).Contents (Elt F)),
    StableHlo.binary main_v81 main_v83 main_v84 (addf : (⟨S32x256, .f32⟩ : BufTy).Contents (Elt F) → (⟨S32x256, .f32⟩ : BufTy).Contents (Elt F) → (⟨S32x256, .f32⟩ : BufTy).Contents (Elt F)),
    StableHlo.unary main_v84 main_v85 (Host.negf : (⟨S32x256, .f32⟩ : BufTy).Contents (Elt F) → (⟨S32x256, .f32⟩ : BufTy).Contents (Elt F)),
    StableHlo.unary main_v85 main_v86 (Host.exp : (⟨S32x256, .f32⟩ : BufTy).Contents (Elt F) → (⟨S32x256, .f32⟩ : BufTy).Contents (Elt F)),
    StableHlo.nullary main_cst_14 (constant S_ .f32 0x3F800000#32),
    StableHlo.unary main_cst_14 main_v87 (broadcastInDim S32x256 ![] bcast_S_S32x256 : (⟨S_, .f32⟩ : BufTy).Contents (Elt F) → (⟨S32x256, .f32⟩ : BufTy).Contents (Elt F)),
    StableHlo.binary main_v87 main_v86 main_v88 (addf : (⟨S32x256, .f32⟩ : BufTy).Contents (Elt F) → (⟨S32x256, .f32⟩ : BufTy).Contents (Elt F) → (⟨S32x256, .f32⟩ : BufTy).Contents (Elt F)),
    StableHlo.nullary main_cst_15 (constant S_ .f32 0x3F800000#32),
    StableHlo.unary main_cst_15 main_v89 (broadcastInDim S32x256 ![] bcast_S_S32x256 : (⟨S_, .f32⟩ : BufTy).Contents (Elt F) → (⟨S32x256, .f32⟩ : BufTy).Contents (Elt F)),
    StableHlo.binary main_v89 main_v88 main_v90 (Host.divf : (⟨S32x256, .f32⟩ : BufTy).Contents (Elt F) → (⟨S32x256, .f32⟩ : BufTy).Contents (Elt F) → (⟨S32x256, .f32⟩ : BufTy).Contents (Elt F)),
    StableHlo.unary main_v90 main_v91 (broadcastInDim S32x256x1x1 ![0, 1] bcast_S32x256_S32x256x1x1_0_1 : (⟨S32x256, .f32⟩ : BufTy).Contents (Elt F) → (⟨S32x256x1x1, .f32⟩ : BufTy).Contents (Elt F)),
    StableHlo.unary main_v91 main_v92 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    StableHlo.binary main_v92 main_arg0 main_v93 (mulf : (⟨S32x256x64x64, .f32⟩ : BufTy).Contents (Elt F) → (⟨S32x256x64x64, .f32⟩ : BufTy).Contents (Elt F) → (⟨S32x256x64x64, .f32⟩ : BufTy).Contents (Elt F)) ]

set_option maxRecDepth 8192 in
set_option maxHeartbeats 4000000 in
/-- @main is that straight line: its two windows and the functions' bodies unfold to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub .., nullary_bufs_sub .., nullary_bufs_sub .., unary_bufs_sub .., binary_bufs_sub ..,
    binary_bufs_sub .., unary_bufs_sub .., nullary_bufs_sub .., nullary_bufs_sub .., nullary_bufs_sub .., unary_bufs_sub ..,
    binary_bufs_sub .., binary_bufs_sub .., nullary_bufs_sub .., unary_bufs_sub .., unary_bufs_sub .., ternary_bufs_sub ..,
    nullary_bufs_sub .., binary_bufs_sub .., unary_bufs_sub .., unary_bufs_sub .., binary_bufs_sub .., unary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., binary_bufs_sub ..⟩

set_option maxRecDepth 8192 in
set_option maxHeartbeats 50000000 in
/-- The result buffer after the line holds the composition of stages of the argument contents: each
    operation's result read off at its own buffer, every other buffer kept. -/
theorem out_eq (V : Valuation τ sig (Elt F)) :
    after ops V (main_v93 : DevRef τ sig)
      = RefTerm.out (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
set_option maxHeartbeats 50000000 in
/-- No operation of the line writes argument 0: its buffer keeps its contents. -/
theorem arg0_eq (V : Valuation τ sig (Elt F)) :
    after ops V (main_arg0 : DevRef τ sig) = V (main_arg0 : DevRef τ sig) := by
  after_results_simp

set_option maxRecDepth 8192 in
set_option maxHeartbeats 50000000 in
/-- No operation of the line writes argument 1: its buffer keeps its contents. -/
theorem arg1_eq (V : Valuation τ sig (Elt F)) :
    after ops V (main_arg1 : DevRef τ sig) = V (main_arg1 : DevRef τ sig) := by
  after_results_simp

set_option maxRecDepth 8192 in
set_option maxHeartbeats 50000000 in
/-- No operation of the line writes argument 2: its buffer keeps its contents. -/
theorem arg2_eq (V : Valuation τ sig (Elt F)) :
    after ops V (main_arg2 : DevRef τ sig) = V (main_arg2 : DevRef τ sig) := by
  after_results_simp

set_option maxRecDepth 8192 in
set_option maxHeartbeats 50000000 in
/-- No operation of the line writes argument 3: its buffer keeps its contents. -/
theorem arg3_eq (V : Valuation τ sig (Elt F)) :
    after ops V (main_arg3 : DevRef τ sig) = V (main_arg3 : DevRef τ sig) := by
  after_results_simp

set_option maxRecDepth 8192 in
set_option maxHeartbeats 50000000 in
/-- No operation of the line writes argument 4: its buffer keeps its contents. -/
theorem arg4_eq (V : Valuation τ sig (Elt F)) :
    after ops V (main_arg4 : DevRef τ sig) = V (main_arg4 : DevRef τ sig) := by
  after_results_simp

/-- On every device, for any float values, from any memory with zero counters: every weakly fair execution of
    @main terminates with the result at the composition of stages of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = RefTerm.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v93).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.RefSlice.lean ====
import proofs.«168882_j5222680232400_1_alg».proof.ReferenceIdeal
import proofs.«168882_j5222680232400_1_alg».proof.Proof.SocaSpec

/-!
One batch of a stack of 32 square matrices, read as a plain matrix of extended reals.
-/

noncomputable section

namespace Cert.ReferenceIdeal.RefSlice

open Cert.ReferenceIdeal Cert.Soca Idealize.ShloMosaic Idealize.ShloMosaic.ValueIdx

/-- Batch b of a [32, 256, 256] array as a 256 × 256 matrix. -/
def sl (b : Fin 32) (A : S32x256x256.Idx → EReal) : Mat 256 256 := fun i j => A (ix3 b i j)

end Cert.ReferenceIdeal.RefSlice

end
-- ==== Proof.LibBatchDot.lean ====
/-
  Batched matrix products read at an output index over the extended reals. For three-axis operands whose leading axis is a
  batch axis carried through to the result, the host's dot_general at (b, i, j) is a finite sum over the one contracted
  coordinate k:
  • contracting the left operand's last axis with the right operand's middle axis ([B,M,K] by [B,K,N], the product L · R
    in every batch): the sum of lhs (b, i, k) · rhs (b, k, j);
  • contracting both operands' last axes ([B,M,K] by [B,N,K], the product L · Rᵀ in every batch): the sum of
    lhs (b, i, k) · rhs (b, j, k).
  The dimension numbers are taken as a record built from its well-formedness proof, so a printed record of the same lists
  is the record here by rfl (the lists coincide and the well-formedness field is a proposition). Last, the unbatched
  product A · Bᵀ of the host, [M,K] by [N,K]: the sum of lhs (r, k) · rhs (c, k).
-/
import Idealize.ShloMosaic.PureOps.Ideal.Laws
import Idealize.ShloMosaic.Lib.ValueIdx
import proofs.«168882_j5222680232400_1_alg».proof.Proof.LibDotTransposedRhs

namespace Idealize.ShloMosaic.BatchDot

open Idealize.ShloMosaic.ValueIdx

variable {B M K N : Nat}

/-! ## L · R in every batch -/

/-- The dimension numbers [2] [1] [1] [2] [0] [0]: [B,M,K] by [B,K,N] to [B,M,N]. -/
def bmm (B M K N : Nat)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ :=
  ⟨[2], [1], [1], [2], [0], [0], wf⟩

section Bmm

variable (wf : DotDims.WF ⟨3, ![B, M, K]⟩ ⟨3, ![B, K, N]⟩ ⟨3, ![B, M, N]⟩ [2] [1] [1] [2] [0] [0])

theorem contr_rank : (bmm B M K N wf).contr.rank = 1 := rfl
theorem contr_size : (bmm B M K N wf).contr.size ⟨0, by rw [contr_rank]; exact Nat.one_pos⟩ = K := rfl

/-- The left operand's batch coordinate is the output's. -/
theorem lhsIdx_val0 (j : (⟨3, ![B, M, N]⟩ : Shape).Idx) (q : (bmm B M K N wf).contr.Idx) :
    ((bmm B M K N wf).lhsIdx j q 0).val = (j 0).val := by
  unfold DotDims.lhsIdx
  rw [dif_pos (show (0 : Fin (⟨3, ![B, M, K]⟩ : Shape).rank) ∈ (bmm B M K N wf).lhsBatch from List.mem_singleton.mpr rfl)]
  rfl

/-- The left operand's row coordinate is the output's row. -/
theorem lhsIdx_val1 (j : (⟨3, ![B, M, N]⟩ : Shape).Idx) (q : (bmm B M K N wf).contr.Idx) :
    ((bmm B M K N wf).lhsIdx j q 1).val = (j 1).val := by
  unfold DotDims.lhsIdx
  rw [dif_neg (show ¬(1 : Fin (⟨3, ![B, M, K]⟩ : Shape).rank) ∈ (bmm B M K N wf).lhsBatch from
      fun h => absurd (Fin.val_eq_of_eq (List.mem_singleton.mp h)) (Nat.succ_ne_zero 0)),
    dif_pos (show (1 : Fin (⟨3, ![B, M, K]⟩ : Shape).rank) ∈ (bmm B M K N wf).lhsNonContracting from List.mem_singleton.mpr rfl)]
  rfl

/-- The left operand's column coordinate is the contraction position. -/
theorem lhsIdx_val2 (j : (⟨3, ![B, M, N]⟩ : Shape).Idx) (q : (bmm B M K N wf).contr.Idx) :
    ((bmm B M K N wf).lhsIdx j q 2).val = (q ⟨0, by rw [contr_rank]; exact Nat.one_pos⟩).val :=
  (bmm B M K N wf).lhsIdx_val_of_single (cl := (2 : Fin 3)) rfl j q

/-- The right operand's batch coordinate is the output's. -/
theorem rhsIdx_val0 (j : (⟨3, ![B, M, N]⟩ : Shape).Idx) (q : (bmm B M K N wf).contr.Idx) :
    ((bmm B M K N wf).rhsIdx j q 0).val = (j 0).val := by
  unfold DotDims.rhsIdx
  rw [dif_pos (show (0 : Fin (⟨3, ![B, K, N]⟩ : Shape).rank) ∈ (bmm B M K N wf).rhsBatch from List.mem_singleton.mpr rfl)]
  rfl

/-- The right operand's row coordinate is the contraction position. -/
theorem rhsIdx_val1 (j : (⟨3, ![B, M, N]⟩ : Shape).Idx) (q : (bmm B M K N wf).contr.Idx) :
    ((bmm B M K N wf).rhsIdx j q 1).val = (q ⟨0, by rw [contr_rank]; exact Nat.one_pos⟩).val :=
  (bmm B M K N wf).rhsIdx_val_of_single (cr := (1 : Fin 3)) rfl j q

/-- The right operand's column coordinate is the output's column. -/
theorem rhsIdx_val2 (j : (⟨3, ![B, M, N]⟩ : Shape).Idx) (q : (bmm B M K N wf).contr.Idx) :
    ((bmm B M K N wf).rhsIdx j q 2).val = (j 2).val := by
  unfold DotDims.rhsIdx
  rw [dif_neg (show ¬(2 : Fin (⟨3, ![B, K, N]⟩ : Shape).rank) ∈ (bmm B M K N wf).rhsBatch from
      fun h => absurd (Fin.val_eq_of_eq (List.mem_singleton.mp h)) (Nat.succ_ne_zero 1)),
    dif_pos (show (2 : Fin (⟨3, ![B, K, N]⟩ : Shape).rank) ∈ (bmm B M K N wf).rhsNonContracting from List.mem_singleton.mpr rfl)]
  rfl

/-- The left operand's index at output index (b, i, j) and contraction position k is (b, i, k). -/
theorem lhsIdx_eq (b : Fin B) (i : Fin M) (j : Fin N) (k : Fin K) :
    (bmm B M K N wf).lhsIdx (ix3 b i j) ((contrEquiv1 (bmm B M K N wf) K (contr_rank wf) (contr_size wf)).symm k)
      = ix3 b i k := by
  have hk := contrEquiv1_symm_val (bmm B M K N wf) K (contr_rank wf) (contr_size wf) k
  funext a
  apply Fin.ext
  match a with
  | ⟨0, _⟩ => exact lhsIdx_val0 wf (ix3 b i j) _
  | ⟨1, _⟩ => exact lhsIdx_val1 wf (ix3 b i j) _
  | ⟨2, _⟩ => exact (lhsIdx_val2 wf (ix3 b i j) _).trans hk

/-- The right operand's index there is (b, k, j). -/
theorem rhsIdx_eq (b : Fin B) (i : Fin M) (j : Fin N) (k : Fin K) :
    (bmm B M K N wf).rhsIdx (ix3 b i j) ((contrEquiv1 (bmm B M K N wf) K (contr_rank wf) (contr_size wf)).symm k)
      = ix3 b k j := by
  have hk := contrEquiv1_symm_val (bmm B M K N wf) K (contr_rank wf) (contr_size wf) k
  funext a
  apply Fin.ext
  match a with
  | ⟨0, _⟩ => exact rhsIdx_val0 wf (ix3 b i j) _
  | ⟨1, _⟩ => exact (rhsIdx_val1 wf (ix3 b i j) _).trans hk
  | ⟨2, _⟩ => exact rhsIdx_val2 wf (ix3 b i j) _

/-- The host's batched product L · R at (b, i, j): the sum over the contracted coordinate of L (b, i, k) · R (b, k, j). -/
theorem dotGeneral_apply_ix3 {φ₁ φ₂ : FTy} (prec : Option ContractPrecision) (sched : HostSchedule)
    (lhs : FVec Ideal ⟨3, ![B, M, K]⟩ φ₁) (rhs : FVec Ideal ⟨3, ![B, K, N]⟩ φ₂) (b : Fin B) (i : Fin M) (j : Fin N) :
    FloatOps.dotGeneral (bmm B M K N wf) prec sched lhs rhs (ix3 b i j)
      = ∑ k : Fin K, lhs (ix3 b i k) * rhs (ix3 b k j) := by
  rw [Ideal.dotGeneral_apply,
    ← Equiv.sum_comp (contrEquiv1 (bmm B M K N wf) K (contr_rank wf) (contr_size wf)).symm]
  refine Finset.sum_congr rfl fun k _ => ?_
  rw [lhsIdx_eq, rhsIdx_eq]

end Bmm

/-! ## L · Rᵀ in every batch -/

/-- The dimension numbers [2] [2] [1] [1] [0] [0]: [B,M,K] by [B,N,K] to [B,M,N]. -/
def bmmT (B M K N : Nat)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ :=
  ⟨[2], [2], [1], [1], [0], [0], wf⟩

section BmmT

variable (wf : DotDims.WF ⟨3, ![B, M, K]⟩ ⟨3, ![B, N, K]⟩ ⟨3, ![B, M, N]⟩ [2] [2] [1] [1] [0] [0])

theorem contrT_rank : (bmmT B M K N wf).contr.rank = 1 := rfl
theorem contrT_size : (bmmT B M K N wf).contr.size ⟨0, by rw [contrT_rank]; exact Nat.one_pos⟩ = K := rfl

theorem lhsIdxT_val0 (j : (⟨3, ![B, M, N]⟩ : Shape).Idx) (q : (bmmT B M K N wf).contr.Idx) :
    ((bmmT B M K N wf).lhsIdx j q 0).val = (j 0).val := by
  unfold DotDims.lhsIdx
  rw [dif_pos (show (0 : Fin (⟨3, ![B, M, K]⟩ : Shape).rank) ∈ (bmmT B M K N wf).lhsBatch from List.mem_singleton.mpr rfl)]
  rfl

theorem lhsIdxT_val1 (j : (⟨3, ![B, M, N]⟩ : Shape).Idx) (q : (bmmT B M K N wf).contr.Idx) :
    ((bmmT B M K N wf).lhsIdx j q 1).val = (j 1).val := by
  unfold DotDims.lhsIdx
  rw [dif_neg (show ¬(1 : Fin (⟨3, ![B, M, K]⟩ : Shape).rank) ∈ (bmmT B M K N wf).lhsBatch from
      fun h => absurd (Fin.val_eq_of_eq (List.mem_singleton.mp h)) (Nat.succ_ne_zero 0)),
    dif_pos (show (1 : Fin (⟨3, ![B, M, K]⟩ : Shape).rank) ∈ (bmmT B M K N wf).lhsNonContracting from List.mem_singleton.mpr rfl)]
  rfl

theorem lhsIdxT_val2 (j : (⟨3, ![B, M, N]⟩ : Shape).Idx) (q : (bmmT B M K N wf).contr.Idx) :
    ((bmmT B M K N wf).lhsIdx j q 2).val = (q ⟨0, by rw [contrT_rank]; exact Nat.one_pos⟩).val :=
  (bmmT B M K N wf).lhsIdx_val_of_single (cl := (2 : Fin 3)) rfl j q

theorem rhsIdxT_val0 (j : (⟨3, ![B, M, N]⟩ : Shape).Idx) (q : (bmmT B M K N wf).contr.Idx) :
    ((bmmT B M K N wf).rhsIdx j q 0).val = (j 0).val := by
  unfold DotDims.rhsIdx
  rw [dif_pos (show (0 : Fin (⟨3, ![B, N, K]⟩ : Shape).rank) ∈ (bmmT B M K N wf).rhsBatch from List.mem_singleton.mpr rfl)]
  rfl

/-- The right operand's row coordinate is the output's column. -/
theorem rhsIdxT_val1 (j : (⟨3, ![B, M, N]⟩ : Shape).Idx) (q : (bmmT B M K N wf).contr.Idx) :
    ((bmmT B M K N wf).rhsIdx j q 1).val = (j 2).val := by
  unfold DotDims.rhsIdx
  rw [dif_neg (show ¬(1 : Fin (⟨3, ![B, N, K]⟩ : Shape).rank) ∈ (bmmT B M K N wf).rhsBatch from
      fun h => absurd (Fin.val_eq_of_eq (List.mem_singleton.mp h)) (Nat.succ_ne_zero 0)),
    dif_pos (show (1 : Fin (⟨3, ![B, N, K]⟩ : Shape).rank) ∈ (bmmT B M K N wf).rhsNonContracting from List.mem_singleton.mpr rfl)]
  rfl

theorem rhsIdxT_val2 (j : (⟨3, ![B, M, N]⟩ : Shape).Idx) (q : (bmmT B M K N wf).contr.Idx) :
    ((bmmT B M K N wf).rhsIdx j q 2).val = (q ⟨0, by rw [contrT_rank]; exact Nat.one_pos⟩).val :=
  (bmmT B M K N wf).rhsIdx_val_of_single (cr := (2 : Fin 3)) rfl j q

theorem lhsIdxT_eq (b : Fin B) (i : Fin M) (j : Fin N) (k : Fin K) :
    (bmmT B M K N wf).lhsIdx (ix3 b i j) ((contrEquiv1 (bmmT B M K N wf) K (contrT_rank wf) (contrT_size wf)).symm k)
      = ix3 b i k := by
  have hk := contrEquiv1_symm_val (bmmT B M K N wf) K (contrT_rank wf) (contrT_size wf) k
  funext a
  apply Fin.ext
  match a with
  | ⟨0, _⟩ => exact lhsIdxT_val0 wf (ix3 b i j) _
  | ⟨1, _⟩ => exact lhsIdxT_val1 wf (ix3 b i j) _
  | ⟨2, _⟩ => exact (lhsIdxT_val2 wf (ix3 b i j) _).trans hk

theorem rhsIdxT_eq (b : Fin B) (i : Fin M) (j : Fin N) (k : Fin K) :
    (bmmT B M K N wf).rhsIdx (ix3 b i j) ((contrEquiv1 (bmmT B M K N wf) K (contrT_rank wf) (contrT_size wf)).symm k)
      = ix3 b j k := by
  have hk := contrEquiv1_symm_val (bmmT B M K N wf) K (contrT_rank wf) (contrT_size wf) k
  funext a
  apply Fin.ext
  match a with
  | ⟨0, _⟩ => exact rhsIdxT_val0 wf (ix3 b i j) _
  | ⟨1, _⟩ => exact rhsIdxT_val1 wf (ix3 b i j) _
  | ⟨2, _⟩ => exact (rhsIdxT_val2 wf (ix3 b i j) _).trans hk

/-- The host's batched product L · Rᵀ at (b, i, j): the sum over the contracted coordinate of L (b, i, k) · R (b, j, k). -/
theorem dotGeneralT_apply_ix3 {φ₁ φ₂ : FTy} (prec : Option ContractPrecision) (sched : HostSchedule)
    (lhs : FVec Ideal ⟨3, ![B, M, K]⟩ φ₁) (rhs : FVec Ideal ⟨3, ![B, N, K]⟩ φ₂) (b : Fin B) (i : Fin M) (j : Fin N) :
    FloatOps.dotGeneral (bmmT B M K N wf) prec sched lhs rhs (ix3 b i j)
      = ∑ k : Fin K, lhs (ix3 b i k) * rhs (ix3 b j k) := by
  rw [Ideal.dotGeneral_apply,
    ← Equiv.sum_comp (contrEquiv1 (bmmT B M K N wf) K (contrT_rank wf) (contrT_size wf)).symm]
  refine Finset.sum_congr rfl fun k _ => ?_
  rw [lhsIdxT_eq, rhsIdxT_eq]

end BmmT

/-! ## The host's unbatched A · Bᵀ -/

/-- The host's product A · Bᵀ at (r, c): the sum over the contracted coordinate of A (r, k) · B (c, k). -/
theorem dotGeneral_transposedRhs_apply_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, lhs (ix2 r k) * rhs (ix2 c k) := by
  rw [Ideal.dotGeneral_apply,
    ← Equiv.sum_comp (contrEquiv1 (DotDims.transposedRhs M K N) K DotTransposedRhs.contr_rank DotTransposedRhs.contr_size).symm]
  refine Finset.sum_congr rfl fun k _ => ?_
  rw [DotTransposedRhs.lhsIdx_eq, DotTransposedRhs.rhsIdx_eq]

end Idealize.ShloMosaic.BatchDot
-- ==== Proof.LibHostSum3.lean ====
/-
  The host's reduction with an add body of a three-axis array [B, L, N] over the extended reals, read at a result index as
  the initial value plus a finite sum over the reduced coordinates:
  • over the last axis, at (b, r): the sum over k of the entries (b, r, k);
  • over the middle axis, at (b, c): the sum over r of the entries (b, r, c);
  • over the two trailing axes, at b: the double sum over (r, c) of the entries (b, r, c).
  The one-axis cases name the reduced coordinate's insertion into the result index; the two-axis case is read off the
  definition (the sum over the indices whose kept coordinate is b) through the triple sum over the coordinates.
-/
import Idealize.ShloMosaic.PureOps.Ideal.Laws
import Idealize.ShloMosaic.Lib.ValueIdx
import proofs.«168882_j5222680232400_1_alg».proof.Proof.LibSumIdx3

namespace Idealize.ShloMosaic.HostSum3

open Idealize.ShloMosaic Idealize.ShloMosaic.ValueIdx

variable {B L N : Nat} {φ : FTy}

/-! ## Over the last axis -/

/-- The shape fact of the kernel-side reduction, from the host-side one (the result has two axes). -/
theorem reduces_last (h' : (⟨3, ![B, L, N]⟩ : Shape).ReducesTo [2] (⟨2, ![B, L]⟩ : Shape)) :
    (⟨3, ![B, L, N]⟩ : Shape).Reduces [2] (⟨2, ![B, L]⟩ : Shape) := ⟨h'.1, Nat.two_pos, h'.2⟩

/-- Entry (b, r) of the result with the last coordinate k put back is (b, r, k). -/
theorem lift_last (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The host's sum over the last axis at (b, r). -/
theorem hostReduceAdd_last (h' : (⟨3, ![B, L, N]⟩ : Shape).ReducesTo [2] (⟨2, ![B, L]⟩ : Shape))
    (x : (⟨3, ![B, L, N]⟩ : Shape).Idx → EReal) (init : EReal) (b : Fin B) (r : Fin L) :
    Ideal.hostReduceAdd h' x init (ix2 b r) = init + ∑ k : Fin N, x (ix3 b r k) := by
  rw [Ideal.hostReduceAdd_single h' (reduces_last h') x init (ix2 b r)]
  exact congrArg (init + ·) (Finset.sum_congr rfl fun k _ => congrArg x (lift_last (reduces_last h') b r k))

/-! ## Over the middle axis -/

theorem reduces_mid (h' : (⟨3, ![B, L, N]⟩ : Shape).ReducesTo [1] (⟨2, ![B, N]⟩ : Shape)) :
    (⟨3, ![B, L, N]⟩ : Shape).Reduces [1] (⟨2, ![B, N]⟩ : Shape) := ⟨h'.1, Nat.two_pos, h'.2⟩

/-- Entry (b, c) of the result with the middle coordinate r put back is (b, r, c). -/
theorem lift_mid (h : (⟨3, ![B, L, N]⟩ : Shape).Reduces [1] (⟨2, ![B, N]⟩ : Shape)) (b : Fin B) (c : Fin N)
    (r : Fin ((⟨3, ![B, L, N]⟩ : Shape).size 1)) : h.lift (ix2 b c) r = ix3 b (⟨r.val, r.isLt⟩ : Fin L) c := by
  funext d; apply Fin.ext
  fin_cases d <;> rfl

/-- The host's sum over the middle axis at (b, c). -/
theorem hostReduceAdd_mid (h' : (⟨3, ![B, L, N]⟩ : Shape).ReducesTo [1] (⟨2, ![B, N]⟩ : Shape))
    (x : (⟨3, ![B, L, N]⟩ : Shape).Idx → EReal) (init : EReal) (b : Fin B) (c : Fin N) :
    Ideal.hostReduceAdd h' x init (ix2 b c) = init + ∑ r : Fin L, x (ix3 b r c) := by
  rw [Ideal.hostReduceAdd_single h' (reduces_mid h') x init (ix2 b c)]
  exact congrArg (init + ·) (Finset.sum_congr rfl fun r _ => congrArg x (lift_mid (reduces_mid h') b c r))

/-! ## Over the two trailing axes -/

/-- Dropping the two trailing coordinates of (a, r, c) leaves a. -/
theorem drop_trailing (h' : (⟨3, ![B, L, N]⟩ : Shape).ReducesTo [1, 2] (⟨1, ![B]⟩ : Shape)) (a : Fin B) (r : Fin L) (c : Fin N) :
    h'.drop (ix3 a r c) = ix1 a := by
  funext d; apply Fin.ext
  match d with
  | ⟨0, _⟩ => exact h'.drop_apply_val_of_eq (ix3 a r c) 0 0 Nat.zero_lt_one rfl

/-- The host's sum over the two trailing axes at b. -/
theorem hostReduceAdd_trailing (h' : (⟨3, ![B, L, N]⟩ : Shape).ReducesTo [1, 2] (⟨1, ![B]⟩ : Shape))
    (x : (⟨3, ![B, L, N]⟩ : Shape).Idx → EReal) (init : EReal) (b : Fin B) :
    Ideal.hostReduceAdd h' x init (ix1 b) = init + ∑ r : Fin L, ∑ c : Fin N, x (ix3 b r c) := by
  unfold Ideal.hostReduceAdd
  refine congrArg (init + ·) ?_
  rw [Finset.sum_filter, SumIdx3.sum_idx3]
  rw [Finset.sum_eq_single b]
  · refine Finset.sum_congr rfl fun r _ => Finset.sum_congr rfl fun c _ => ?_
    rw [if_pos (drop_trailing h' b r c)]
  · intro a _ hab
    refine Finset.sum_eq_zero fun r _ => Finset.sum_eq_zero fun c _ => ?_
    rw [if_neg]
    intro e
    rw [drop_trailing h' a r c] at e
    exact hab (by have := congrFun e 0; exact this)
  · intro hb; exact absurd (Finset.mem_univ b) hb

end Idealize.ShloMosaic.HostSum3
-- ==== Proof.RefMathA.lean ====
import proofs.«168882_j5222680232400_1_alg».proof.Proof.RefTerm
import proofs.«168882_j5222680232400_1_alg».proof.Proof.RefSlice
import proofs.«168882_j5222680232400_1_alg».proof.Proof.SocaSpec
import proofs.«168882_j5222680232400_1_alg».proof.Proof.LibBatchDot
import proofs.«168882_j5222680232400_1_alg».proof.Proof.LibHostSum3
import Idealize.ShloMosaic.Lib.ValueLayout
import Idealize.ShloMosaic.Lib.Pipeline.Value

/-!
The reference's matrix stages read batch by batch over the extended reals.

Each stage of the reference works on a stack of 32 matrices at once. Read at one batch b, with the stack's batch b taken
as a plain 256 × 256 matrix: the batched product is the matrix product; the covariance stage is the covariance of batch
b's 256 × 4096 slab of the input (rows centred by their mean over the 4096 positions, the Gram matrix of the centred
rows over 4096); the trace stage is the sum of the diagonal, written as the sum of every entry against the identity's;
the column-mean stage is the mean down each column. Every sum starts from the zero pattern, which is the real zero.
-/

noncomputable section

namespace Cert.ReferenceIdeal.RefMathA

open Cert.ReferenceIdeal Cert.ReferenceIdeal.Gen Cert.ReferenceIdeal.RefTerm Cert.ReferenceIdeal.RefSlice Cert.Soca
open Idealize.ShloMosaic Idealize.ShloMosaic.ValueIdx

/-! ## Small readings -/

/-- The host's quotient at an index is the extended reals' total quotient of the entries. -/
theorem hostDivf_apply {s : Shape} {φ : FTy} (x y : FVec Ideal s φ) (i : s.Idx) : Host.divf x y i = Ideal.div (x i) (y i) := rfl

/-- A scalar broadcast to any shape reads the scalar's one entry everywhere. -/
theorem scalar_bcast {α : Type} {t : Shape} (dims : Fin S_.rank → Fin t.rank) (h : S_.BroadcastsInDim t dims) (x : S_.Idx → α)
    (j : t.Idx) : broadcastInDim t dims h x j = x ix0 :=
  broadcastInDim_apply dims h x j ix0 (fun a => a.elim0)

/-- The zero scalar's entry is the real zero. -/
theorem zero_apply (k : S_.Idx) : (zero (F := Ideal)) k = (0 : EReal) := Ideal.ofBits_zero_f32

/-! ## The batched product -/

theorem dot_mm_eq : dot_S32x256x256_S32x256x256_S32x256x256_2_1_1_2_0_0
    = BatchDot.bmm 32 256 256 256 dot_S32x256x256_S32x256x256_S32x256x256_2_1_1_2_0_0_wf := rfl

/-- The batched product at (b, i, j). -/
theorem mm_apply (L R : FVec Ideal S32x256x256 .f32) (b : Fin 32) (i j : Fin 256) :
    mm (F := Ideal) L R (ix3 b i j) = ∑ l : Fin 256, L (ix3 b i l) * R (ix3 b l j) := by
  unfold mm
  rw [dot_mm_eq]
  exact BatchDot.dotGeneral_apply_ix3 _ none .single L R b i j

/-- Batch b of the batched product is the product of the two batches. -/
theorem sl_mm (b : Fin 32) (L R : FVec Ideal S32x256x256 .f32) : sl b (mm (F := Ideal) L R) = mmul (sl b L) (sl b R) := by
  funext i j
  exact mm_apply L R b i j

/-! ## The covariance -/

/-- The flattened input at (b, c, s) is batch b's slab at (c, s). -/
theorem flat_apply (x : FVec Ideal S32x256x64x64 .f32) (b : Fin 32) (c : Fin 256) (s : Fin 4096) :
    flat (F := Ideal) x (ix3 b c s) = slab x b c s := by
  have hs : s.val < 4096 := s.isLt
  unfold flat slab
  refine shapeCast_apply x _ _ _ ?_
  rw [Shape.rowMajor_val_four, Shape.rowMajor_val_three]
  show ((b.val * 256 + c.val) * 64 + s.val / 64) * 64 + s.val % 64 = (b.val * 256 + c.val) * 4096 + s.val
  omega

/-- The sum of a row over the 4096 positions, from the zero scalar. -/
theorem rowsum_apply (v : FVec Ideal S32x256x4096 .f32) (b : Fin 32) (c : Fin 256) :
    Host.reduceAdd v (zero (F := Ideal)) reducesTo_S32x256x4096_S32x256_d2 h_S_ (ix2 b c) = ∑ k : Fin 4096, v (ix3 b c k) := by
  show Ideal.hostReduceAdd reducesTo_S32x256x4096_S32x256_d2 v ((zero (F := Ideal)) (Shape.Idx.first h_S_)) (ix2 b c) = _
  rw [HostSum3.hostReduceAdd_last reducesTo_S32x256x4096_S32x256_d2 v _ b c, zero_apply, zero_add]

/-- A centred entry: the entry minus its row's mean. -/
theorem center_apply (v : FVec Ideal S32x256x4096 .f32) (b : Fin 32) (c : Fin 256) (s : Fin 4096) :
    center (F := Ideal) v (ix3 b c s) = v (ix3 b c s) - Ideal.div (∑ k : Fin 4096, v (ix3 b c k)) cM := by
  unfold center
  rw [subf_apply]
  refine congrArg (v (ix3 b c s) - ·) ?_
  refine (broadcastInDim_apply _ _ _ _ (ix3 b c (0 : Fin 1)) fun a => ?_).trans ?_
  · match a with
    | ⟨0, _⟩ => rfl
    | ⟨1, _⟩ => rfl
    | ⟨2, _⟩ => rfl
  rw [hostDivf_apply]
  refine congrArg₂ Ideal.div ?_ ?_
  · refine (broadcastInDim_apply _ _ _ _ (ix2 b c) fun a => ?_).trans (rowsum_apply v b c)
    match a with
    | ⟨0, _⟩ => rfl
    | ⟨1, _⟩ => rfl
  · exact scalar_bcast _ _ _ _

theorem dot_gram_eq : dot_S32x256x4096_S32x256x4096_S32x256x256_2_2_1_1_0_0
    = BatchDot.bmmT 32 256 4096 256 dot_S32x256x4096_S32x256x4096_S32x256x256_2_2_1_1_0_0_wf := rfl

/-- The Gram matrix of the rows at (b, c, d). -/
theorem gram_apply (v : FVec Ideal S32x256x4096 .f32) (b : Fin 32) (c d : Fin 256) :
    gram (F := Ideal) v (ix3 b c d) = ∑ s : Fin 4096, v (ix3 b c s) * v (ix3 b d s) := by
  unfold gram
  rw [dot_gram_eq]
  exact BatchDot.dotGeneralT_apply_ix3 _ none .single v v b c d

/-- Batch b of the covariance stage is the covariance of batch b's slab. -/
theorem cov_sl (b : Fin 32) (x : FVec Ideal S32x256x64x64 .f32) : sl b (cov (F := Ideal) x) = covM (slab x b) := by
  funext c d
  unfold sl cov covM
  rw [hostDivf_apply, gram_apply]
  refine congrArg₂ Ideal.div (Finset.sum_congr rfl fun s _ => ?_) (scalar_bcast _ _ _ _)
  have hc : ∀ (e : Fin 256) (s : Fin 4096), center (F := Ideal) (flat (F := Ideal) x) (ix3 b e s) = cen (slab x b) e s := by
    intro e s
    rw [center_apply]
    unfold cen
    rw [flat_apply]
    exact congrArg (fun t => slab x b e s - Ideal.div t cM) (Finset.sum_congr rfl fun k _ => flat_apply x b e k)
  rw [hc, hc]

end Cert.ReferenceIdeal.RefMathA

end
-- ==== Proof.RefMathB.lean ====
import proofs.«168882_j5222680232400_1_alg».proof.Proof.RefTerm
import proofs.«168882_j5222680232400_1_alg».proof.Proof.RefSlice
import proofs.«168882_j5222680232400_1_alg».proof.Proof.SocaSpec
import proofs.«168882_j5222680232400_1_alg».proof.Proof.LibBatchDot
import Idealize.ShloMosaic.Lib.ValueIdx
import Idealize.ShloMosaic.Lib.Pipeline.Value

/-!
The reference's stages read entry by entry over the extended reals: the identity matrix from the two index
arrays, the Newton–Schulz correction of one batch, the division by and the rescaling with the trace, the two
dense layers with the rectifier and the logistic function, and the final product with the gate.
-/

noncomputable section

namespace Cert.ReferenceIdeal.RefMathB

open Cert.ReferenceIdeal Cert.ReferenceIdeal.RefTerm Cert.ReferenceIdeal.RefSlice Cert.Soca Idealize.ShloMosaic
  Idealize.ShloMosaic.ValueIdx

/-- Two coordinates below 256 have equal 32-bit words exactly when they are equal. -/
theorem eye_bit (i j : Fin 256) :
    IntOp.cmpi CmpIPredicate.eq (BitVec.ofNat 32 i.val) (BitVec.ofNat 32 j.val) = if i = j then 1#1 else 0#1 := by
  by_cases h : i = j
  · subst h; simp [IntOp.cmpi]
  · have hne : BitVec.ofNat 32 i.val ≠ BitVec.ofNat 32 j.val := by
      intro hh
      have h2 := congrArg BitVec.toNat hh
      simp only [BitVec.toNat_ofNat] at h2
      have hi := i.isLt; have hj := j.isLt
      rw [Nat.mod_eq_of_lt (by omega), Nat.mod_eq_of_lt (by omega)] at h2
      exact h (Fin.ext h2)
    have hb : (BitVec.ofNat 32 i.val == BitVec.ofNat 32 j.val) = false := beq_eq_false_iff_ne.mpr hne
    simp [IntOp.cmpi, h, hb]

/-- A scalar broadcast to any shape reads the scalar everywhere. -/
theorem bcast0_apply {t : Shape} {α : Type} (h : S_.BroadcastsInDim t (![] : Fin 0 → Fin t.rank)) (x : S_.Idx → α)
    (j : t.Idx) : broadcastInDim t ![] h x j = x ix0 :=
  broadcastInDim_apply _ h x j ix0 (fun a => a.elim0)

/-- The diagonal mask at (i, j). -/
theorem mask_apply (i j : Fin 256) : RefTerm.mask (F := Ideal) (ix2 i j) = if i = j then 1#1 else 0#1 := by
  have hb : broadcastInDim S256x256 ![] Gen.bcast_S_S256x256 (constantI S_ 32 0#32) (ix2 i j) = 0#32 :=
    (bcast0_apply _ _ _).trans rfl
  have h2 : IntOp.addi (BitVec.ofNat 32 i.val) 0#32 = BitVec.ofNat 32 i.val := by simp [IntOp.addi]
  unfold RefTerm.mask
  show IntOp.cmpi .eq (IntOp.addi (BitVec.ofNat 32 i.val)
      (broadcastInDim S256x256 ![] Gen.bcast_S_S256x256 (constantI S_ 32 0#32) (ix2 i j))) (BitVec.ofNat 32 j.val) = _
  rw [hb, h2, eye_bit]

/-- The mask converted to floats is the identity matrix. -/
theorem eye_apply (i j : Fin 256) : RefTerm.eye (F := Ideal) (ix2 i j) = eyeM i j := by
  unfold RefTerm.eye eyeM
  show (((RefTerm.mask (F := Ideal) (ix2 i j)).toNat : ℝ) : EReal) = _
  rw [mask_apply]
  split
  · have : (1#1 : BitVec 1).toNat = 1 := rfl
    rw [this]; simp
  · have : (0#1 : BitVec 1).toNat = 0 := rfl
    rw [this]; simp

/-- Every batch of the broadcast identity is the identity. -/
theorem sl_eyeB (b : Fin 32) : sl b (RefTerm.eyeB (F := Ideal)) = eyeM := by
  funext i j
  show RefTerm.eyeB (F := Ideal) (ix3 b i j) = eyeM i j
  unfold RefTerm.eyeB
  refine (broadcastInDim_apply _ _ _ (ix3 b i j) (ix2 i j) fun a => ?_).trans (eye_apply i j)
  match a with
  | ⟨0, _⟩ => rfl
  | ⟨1, _⟩ => rfl

/-- Three times the identity, entry by entry. -/
theorem threeEye_apply (i j : Fin 256) : RefTerm.threeEye (F := Ideal) (ix2 i j) = c3 * eyeM i j := by
  unfold RefTerm.threeEye
  refine (mulf_apply _ _ _).trans ?_
  exact congrArg₂ (· * ·) ((bcast0_apply _ _ _).trans rfl) (eye_apply i j)

/-- Three times the identity in every batch. -/
theorem threeEyeB_apply (b : Fin 32) (i j : Fin 256) : RefTerm.threeEyeB (F := Ideal) (ix3 b i j) = c3 * eyeM i j := by
  unfold RefTerm.threeEyeB
  refine (broadcastInDim_apply _ _ _ (ix3 b i j) (ix3 (0 : Fin 1) i j) fun a => ?_).trans ?_
  · match a with
    | ⟨0, _⟩ => rfl
    | ⟨1, _⟩ => rfl
    | ⟨2, _⟩ => rfl
  refine (broadcastInDim_apply _ _ _ (ix3 (0 : Fin 1) i j) (ix2 i j) fun a => ?_).trans (threeEye_apply i j)
  match a with
  | ⟨0, _⟩ => rfl
  | ⟨1, _⟩ => rfl

/-- The Newton–Schulz correction of one batch, given that batch's product. -/
theorem sl_tstep (b : Fin 32) (Z Y : S32x256x256.Idx → EReal)
    (hmm : sl b (RefTerm.mm (F := Ideal) Z Y) = mmul (sl b Z) (sl b Y)) :
    sl b (RefTerm.tstep (F := Ideal) Z Y) = Soca.tstep (sl b Z) (sl b Y) := by
  funext i j
  show RefTerm.tstep (F := Ideal) Z Y (ix3 b i j) = cH * (c3 * eyeM i j - mmul (sl b Z) (sl b Y) i j)
  unfold RefTerm.tstep
  refine (mulf_apply _ _ _).trans ?_
  refine congrArg₂ (· * ·) ((bcast0_apply _ _ _).trans rfl) ?_
  refine (subf_apply _ _ _).trans ?_
  exact congrArg₂ (· - ·) (threeEyeB_apply b i j) (congrFun (congrFun hmm i) j)

/-- A batch of the matrix over the trace. -/
theorem sl_divTr (b : Fin 32) (A : S32x256x256.Idx → EReal) (t : S32x1x1.Idx → EReal) :
    sl b (RefTerm.divTr (F := Ideal) A t)
      = fun i j => Ideal.div (sl b A i j) (t (ix3 b (0 : Fin 1) (0 : Fin 1))) := by
  funext i j
  show Ideal.div (A (ix3 b i j))
      (broadcastInDim S32x256x256 ![0, 1, 2] Gen.bcast_S32x1x1_S32x256x256_0_1_2 t (ix3 b i j)) = _
  refine congrArg (Ideal.div (A (ix3 b i j))) ?_
  refine broadcastInDim_apply _ _ _ (ix3 b i j) (ix3 b (0 : Fin 1) (0 : Fin 1)) fun a => ?_
  match a with
  | ⟨0, _⟩ => rfl
  | ⟨1, _⟩ => rfl
  | ⟨2, _⟩ => rfl

/-- A batch of the matrix times the root of the trace. -/
theorem sl_scale (b : Fin 32) (Y : S32x256x256.Idx → EReal) (t : S32x1x1.Idx → EReal) :
    sl b (RefTerm.scale (F := Ideal) Y t)
      = fun i j => sl b Y i j * Ideal.sqrt (t (ix3 b (0 : Fin 1) (0 : Fin 1))) := by
  funext i j
  show Y (ix3 b i j)
      * broadcastInDim S32x256x256 ![0, 1, 2] Gen.bcast_S32x1x1_S32x256x256_0_1_2 (Host.sqrt (F := Ideal) t) (ix3 b i j) = _
  refine congrArg (Y (ix3 b i j) * ·) ?_
  refine (broadcastInDim_apply _ _ _ (ix3 b i j) (ix3 b (0 : Fin 1) (0 : Fin 1)) fun a => ?_).trans rfl
  match a with
  | ⟨0, _⟩ => rfl
  | ⟨1, _⟩ => rfl
  | ⟨2, _⟩ => rfl

theorem dot1_eq : dot_S32x256_S32x256_S32x32_1_1_0_0_n_n = DotDims.transposedRhs 32 256 32 := rfl
theorem dot2_eq : dot_S32x32_S256x32_S32x256_1_1_0_0_n_n = DotDims.transposedRhs 32 32 256 := rfl

/-- The first dense layer at (b, o). -/
theorem dense1_apply (v w1 : S32x256.Idx → EReal) (b1 : S32.Idx → EReal) (b o : Fin 32) :
    RefTerm.dense1 (F := Ideal) v w1 b1 (ix2 b o) = (∑ c : Fin 256, v (ix2 b c) * w1 (ix2 o c)) + b1 (ix1 o) := by
  unfold RefTerm.dense1
  refine (addf_apply _ _ _).trans ?_
  refine congrArg₂ (· + ·) ?_ ?_
  · rw [dot1_eq]
    exact BatchDot.dotGeneral_transposedRhs_apply_ix2 none .single v w1 b o
  · refine (broadcastInDim_apply _ _ _ (ix2 b o) (ix2 (0 : Fin 1) o) fun a => ?_).trans ?_
    · match a with
      | ⟨0, _⟩ => rfl
      | ⟨1, _⟩ => rfl
    refine broadcastInDim_apply _ _ _ (ix2 (0 : Fin 1) o) (ix1 o) fun a => ?_
    match a with
    | ⟨0, _⟩ => rfl

/-- The rectifier at an entry. -/
theorem relu_apply (h : S32x32.Idx → EReal) (j : S32x32.Idx) : RefTerm.relu (F := Ideal) h j = max (h j) c0 := by
  unfold RefTerm.relu
  refine (maximumf_apply _ _ _).trans ?_
  exact congrArg (max (h j)) ((bcast0_apply _ _ _).trans rfl)

/-- The second dense layer at (b, c). -/
theorem dense2_apply (h : S32x32.Idx → EReal) (w2 : S256x32.Idx → EReal) (b2 : S256.Idx → EReal) (b : Fin 32) (c : Fin 256) :
    RefTerm.dense2 (F := Ideal) h w2 b2 (ix2 b c) = (∑ o : Fin 32, h (ix2 b o) * w2 (ix2 c o)) + b2 (ix1 c) := by
  unfold RefTerm.dense2
  refine (addf_apply _ _ _).trans ?_
  refine congrArg₂ (· + ·) ?_ ?_
  · rw [dot2_eq]
    exact BatchDot.dotGeneral_transposedRhs_apply_ix2 none .single h w2 b c
  · refine (broadcastInDim_apply _ _ _ (ix2 b c) (ix2 (0 : Fin 1) c) fun a => ?_).trans ?_
    · match a with
      | ⟨0, _⟩ => rfl
      | ⟨1, _⟩ => rfl
    refine broadcastInDim_apply _ _ _ (ix2 (0 : Fin 1) c) (ix1 c) fun a => ?_
    match a with
    | ⟨0, _⟩ => rfl

/-- The all-ones tensor reads one. -/
theorem ones_apply (j : S32x256.Idx) : RefTerm.ones (F := Ideal) j = 1 := by
  unfold RefTerm.ones
  exact ((bcast0_apply _ _ _).trans rfl).trans ofBits_one

/-- The logistic function at an entry. -/
theorem sigmoid_apply (z : S32x256.Idx → EReal) (j : S32x256.Idx) :
    RefTerm.sigmoid (F := Ideal) z j = Ideal.logistic (z j) := by
  unfold RefTerm.sigmoid Ideal.logistic
  show Ideal.div (RefTerm.ones (F := Ideal) j) (RefTerm.ones (F := Ideal) j + Ideal.exp (-(z j))) = _
  rw [ones_apply]

/-- The channel gate at (b, c): the two dense layers of the specification on batch b's row. -/
theorem gate_apply (v w1 : S32x256.Idx → EReal) (b1 : S32.Idx → EReal) (w2 : S256x32.Idx → EReal)
    (b2 : S256.Idx → EReal) (b : Fin 32) (c : Fin 256) :
    RefTerm.gate (F := Ideal) v w1 b1 w2 b2 (ix2 b c)
      = Soca.gate (Soca.hidden (fun c' => v (ix2 b c')) (fun o c' => w1 (ix2 o c')) (fun o => b1 (ix1 o)))
          (fun c' o => w2 (ix2 c' o)) (fun c' => b2 (ix1 c')) c := by
  unfold RefTerm.gate Soca.gate Soca.hidden
  refine (sigmoid_apply _ _).trans ?_
  refine congrArg Ideal.logistic ?_
  refine (dense2_apply _ _ _ b c).trans ?_
  refine congrArg (· + b2 (ix1 c)) (Finset.sum_congr rfl fun o _ => congrArg (· * w2 (ix2 c o)) ?_)
  refine (relu_apply _ _).trans ?_
  exact congrArg (max · c0) (dense1_apply v w1 b1 b o)

/-- The gate of (b, c) times the entry of x. -/
theorem applyGate_apply (a : S32x256.Idx → EReal) (x : S32x256x64x64.Idx → EReal) (b : Fin 32) (c : Fin 256)
    (h w : Fin 64) :
    RefTerm.applyGate (F := Ideal) a x (ix4 b c h w) = a (ix2 b c) * x (ix4 b c h w) := by
  unfold RefTerm.applyGate
  refine (mulf_apply _ _ _).trans ?_
  refine congrArg (· * x (ix4 b c h w)) ?_
  refine (broadcastInDim_apply _ _ _ (ix4 b c h w) (ix4 b c (0 : Fin 1) (0 : Fin 1)) fun a' => ?_).trans ?_
  · match a' with
    | ⟨0, _⟩ => rfl
    | ⟨1, _⟩ => rfl
    | ⟨2, _⟩ => rfl
    | ⟨3, _⟩ => rfl
  refine broadcastInDim_apply _ _ _ (ix4 b c (0 : Fin 1) (0 : Fin 1)) (ix2 b c) fun a' => ?_
  match a' with
  | ⟨0, _⟩ => rfl
  | ⟨1, _⟩ => rfl

end Cert.ReferenceIdeal.RefMathB

end
-- ==== Proof.RefMathC.lean ====
import proofs.«168882_j5222680232400_1_alg».proof.Proof.RefMathB
import proofs.«168882_j5222680232400_1_alg».proof.Proof.LibHostSum3

/-!
The reference's two reduction stages read entry by entry over the extended reals: the trace of one batch's matrix
(the sum over both matrix axes of the matrix with its off-diagonal entries replaced by zero) and the mean down each
column of one batch's matrix.
-/

noncomputable section

namespace Cert.ReferenceIdeal.RefMathC

open Cert.ReferenceIdeal Cert.ReferenceIdeal.RefTerm Cert.ReferenceIdeal.RefSlice Cert.ReferenceIdeal.RefMathB Cert.Soca
  Idealize.ShloMosaic Idealize.ShloMosaic.ValueIdx

/-- The zero scalar reads zero. -/
theorem zero_apply (i : S_.Idx) : RefTerm.zero (F := Ideal) i = 0 := Ideal.ofBits_zero_f32

/-- The host's quotient, entry by entry. -/
theorem hostDivf_apply {s : Shape} (x y : FVec Ideal s .f32) (i : s.Idx) : Host.divf x y i = Ideal.div (x i) (y i) := rfl

/-- The matrix with its off-diagonal entries replaced by zero, at (b, r, c): the entry times the identity's. -/
theorem masked_apply (A : S32x256x256.Idx → EReal) (b : Fin 32) (r c : Fin 256) :
    select (broadcastInDim S32x256x256 ![1, 2] Gen.bcast_S256x256_S32x256x256_1_2 (RefTerm.mask (F := Ideal))) A
        (broadcastInDim S32x256x256 ![] Gen.bcast_S_S32x256x256 (RefTerm.zero (F := Ideal))) (ix3 b r c)
      = sl b A r c * eyeM r c := by
  have hm : broadcastInDim S32x256x256 ![1, 2] Gen.bcast_S256x256_S32x256x256_1_2 (RefTerm.mask (F := Ideal)) (ix3 b r c)
      = if r = c then 1#1 else 0#1 :=
    (broadcastInDim_apply _ _ _ (ix3 b r c) (ix2 r c) fun a => by
      match a with
      | ⟨0, _⟩ => rfl
      | ⟨1, _⟩ => rfl).trans (mask_apply r c)
  have hz : broadcastInDim S32x256x256 ![] Gen.bcast_S_S32x256x256 (RefTerm.zero (F := Ideal)) (ix3 b r c) = 0 :=
    (bcast0_apply _ _ _).trans (zero_apply _)
  rw [mul_eye]
  refine (select_apply _ _ _ _).trans ?_
  refine (congrArg₂ (fun m z => Scalar.select m (A (ix3 b r c)) z) hm hz).trans ?_
  by_cases h : r = c
  · rw [if_pos h, if_pos h]; exact select_one _ _
  · rw [if_neg h, if_neg h]; exact select_zero _ _

/-- The trace stage at batch b (at its two unit coordinates) is the trace of batch b's matrix. -/
theorem tr_apply (A : S32x256x256.Idx → EReal) (b : Fin 32) (u v : Fin 1) :
    RefTerm.tr (F := Ideal) A (ix3 b u v) = trM (sl b A) := by
  unfold RefTerm.tr
  refine (broadcastInDim_apply _ _ _ (ix3 b u v) (ix1 b) fun a => ?_).trans ?_
  · match a with
    | ⟨0, _⟩ => rfl
  refine (HostSum3.hostReduceAdd_trailing _ _ _ b).trans ?_
  refine (congrArg (· + _) (zero_apply _)).trans ?_
  refine (zero_add _).trans ?_
  unfold trM
  exact Finset.sum_congr rfl fun r _ => Finset.sum_congr rfl fun c _ => masked_apply A b r c

/-- The column-mean stage at (b, d) is the mean down column d of batch b's matrix. -/
theorem colMean_apply (M : S32x256x256.Idx → EReal) (b : Fin 32) (d : Fin 256) :
    RefTerm.colMean (F := Ideal) M (ix2 b d) = Soca.pool (sl b M) d := by
  unfold RefTerm.colMean Soca.pool
  refine (hostDivf_apply _ _ _).trans ?_
  refine congrArg₂ Ideal.div ?_ ((bcast0_apply _ _ _).trans rfl)
  refine (HostSum3.hostReduceAdd_mid _ _ _ b d).trans ?_
  refine (congrArg (· + _) (zero_apply _)).trans ?_
  exact zero_add _

end Cert.ReferenceIdeal.RefMathC

end
-- ==== Proof.RefG.lean ====
/-
  The reference's result is the specification `Cert.Soca.G` of its five arguments: batch `b`'s slice of every batched
  stage is the corresponding matrix function of batch `b`'s slab — the batched products are matrix products slice by
  slice, the broadcast identity is the identity in every slice, the trace and its root are per-slice scalars, the
  column means and the two dense layers are read row `b` by row `b` — and the last product is entry by entry.
-/
import proofs.«168882_j5222680232400_1_alg».proof.Proof.RefMathA
import proofs.«168882_j5222680232400_1_alg».proof.Proof.RefMathB
import proofs.«168882_j5222680232400_1_alg».proof.Proof.RefMathC

noncomputable section

namespace Cert.ReferenceIdeal.RefG

open Idealize.ShloMosaic Idealize.ShloMosaic.ValueIdx Cert.ReferenceIdeal Cert.Soca
open Cert.ReferenceIdeal.RefSlice Cert.ReferenceIdeal.RefMathA Cert.ReferenceIdeal.RefMathB Cert.ReferenceIdeal.RefMathC

/-- A slice of the batched correction `½ (3 I − Z Y)` is the correction of the slices. -/
theorem sl_tstep' (b : Fin 32) (Z Y : S32x256x256.Idx → EReal) :
    sl b (RefTerm.tstep (F := Ideal) Z Y) = Soca.tstep (sl b Z) (sl b Y) :=
  RefMathB.sl_tstep b Z Y (RefMathA.sl_mm b Z Y)

/-- The reference's result is `G` of its arguments. -/
theorem out_eq_G (x : Vec Ideal S32x256x64x64 .f32) (w1 : Vec Ideal S32x256 .f32) (b1 : Vec Ideal S32 .f32)
    (w2 : Vec Ideal S256x32 .f32) (b2 : Vec Ideal S256 .f32) :
    RefTerm.out (F := Ideal) x w1 b1 w2 b2 = G x w1 b1 w2 b2 := by
  funext j
  obtain ⟨b, c, h, w, rfl⟩ : ∃ (b : Fin 32) (c : Fin 256) (h w : Fin 64), j = ix4 b c h w := ⟨j 0, j 1, j 2, j 3, eq_ix4 j⟩
  unfold RefTerm.out
  dsimp only
  rw [applyGate_apply, gate_apply]
  unfold G gateOf
  refine congrArg (· * x (ix4 b c h w)) ?_
  refine congrArg (fun v => Soca.gate (Soca.hidden v (fun o c' => w1 (ix2 o c')) (fun o => b1 (ix1 o)))
    (fun c' o => w2 (ix2 c' o)) (fun c' => b2 (ix1 c')) c) ?_
  funext c'
  rw [colMean_apply]
  refine congrArg (fun S => Soca.pool S c') ?_
  rw [sl_scale]
  simp only [sl_mm, sl_tstep', sl_eyeB, sl_divTr, tr_apply, cov_sl]
  rfl

end Cert.ReferenceIdeal.RefG

end
-- ==== Proof.lean ====
/-
  Second-order channel attention, the fused kernel against the jnp reference, over the extended reals.

  Both programs compute, for every batch element `b` and channel `c`, the gate `a[b, c]` of the `256 × 4096` slab
  `x[b]` — rows centred by their means, the covariance `Xc Xcᵀ / 4096`, its trace, five Newton–Schulz steps
  `T = ½ (3 I − Z Y)`, `Y ← Y T`, `Z ← T Z` from `(cov / trace, I)` (the last step only of `Y`), the result
  rescaled by `√trace`, the mean down each column, a rectified dense layer and a logistic dense layer — and return
  `a[b, c] · x[b, c, ·, ·]`. The kernel does it one batch element per grid point on `[256, 4096]` blocks with plain
  matrix products; the reference does it for all batch elements at once with batched products. At the extended
  reals a change of float format is the identity, a product into a zero accumulator and a `dot_general` are the same
  finite sum, a lane reduction and a host reduction are the same finite sum, the identity matrix from two iotas is the
  same matrix whether converted through `i32` or from `i1`, multiplying by it is selecting by it, and `tpu.logistic`
  is `1 / (1 + e⁻ˣ)`: both results are the one function `Cert.Soca.G` of the five arguments, entry by entry. No law
  that needs finiteness is used, so the precondition is never opened.

  The three frames: the kernel's two are the generated frame certificates; the reference's is its run with the
  result dropped. The idealization rewrote nothing, so `preserves` is `True`.
-/
import proofs.«168882_j5222680232400_1_alg».proof.Defs
import proofs.«168882_j5222680232400_1_alg».proof.Proof.Gen.Kernel
import proofs.«168882_j5222680232400_1_alg».proof.Proof.Gen.Kernel.Frame
import proofs.«168882_j5222680232400_1_alg».proof.Proof.Gen.KernelIdeal
import proofs.«168882_j5222680232400_1_alg».proof.Proof.Gen.KernelIdeal.Frame
import proofs.«168882_j5222680232400_1_alg».proof.Proof.Gen.ReferenceIdeal
import proofs.«168882_j5222680232400_1_alg».proof.Proof.Gen.Pre_finite_inputs
import proofs.«168882_j5222680232400_1_alg».proof.Proof.KernelRun
import proofs.«168882_j5222680232400_1_alg».proof.Proof.KG
import proofs.«168882_j5222680232400_1_alg».proof.Proof.RefRun
import proofs.«168882_j5222680232400_1_alg».proof.Proof.RefG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and its run leaves the arguments as they were. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with `G` of the arguments, and the arguments agree. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.KG.out_eq_G _ _ _ _ _), (h c).2⟩)
    (Cert.KernelIdeal.KRun.run (F := Ideal) m ρ), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.ReferenceIdeal.RefG.out_eq_G _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
